-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩
abbrev S5000 : Shape := ⟨1, ![5000]⟩
abbrev S5000x1 : Shape := ⟨2, ![5000, 1]⟩

abbrev nBuf : Space → Nat
  | .hbm => 84
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x64, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x64, .f32⟩
  | .hbm, ⟨75, _⟩ => ⟨S1700000x1, .f32⟩
  | .hbm, ⟨76, _⟩ => ⟨S1700000x64, .f32⟩
  | .hbm, ⟨77, _⟩ => ⟨S1700000x64, .f32⟩
  | .hbm, ⟨78, _⟩ => ⟨S_, .f32⟩
  | .hbm, ⟨79, _⟩ => ⟨S100000x64, .f32⟩
  | .hbm, ⟨80, _⟩ => ⟨S1700000x1, .i32⟩
  | .hbm, ⟨81, _⟩ => ⟨S100000x64, .f32⟩
  | .hbm, ⟨82, _⟩ => ⟨S1x64, .f32⟩
  | .hbm, ⟨83, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x1, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x64, .f32⟩
  | .hbm, ⟨96, _⟩ => ⟨S100000x64, .f32⟩
  | .hbm, ⟨97, _⟩ => ⟨S100000x64, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x64, .f32⟩
  | .hbm, ⟨103, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run with its result named. Every weakly fair execution of @main — three stretches of host
  operations, the first linear layer's region, a stretch, the bias-and-relu region, the second linear layer's region, a
  stretch, the bias-and-log-softmax region — terminates without a fault; the last region's output array, the buffer @main
  returns, ends at what the last boundary's contents give it (the write-backs of that region folded over the 20 row
  blocks), and the six argument arrays end as launched. The argument is the one of the frame: the same segments, the same
  thread state "every unscoped buffer at the boundary's contents", read against the final state at one more buffer.
-/
import proofs.«110104_j21534966022499_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the returned buffer at the last boundary's contents, the arguments as launched. -/
theorem run_named : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

/-- The returned buffer is the last region's output window: at the last boundary it holds that region's write-backs
    folded over all 20 grid points. -/
theorem result_is_region3 (c : Dev nD) :
    W9 m ρ c (Proc.devRef .tc main_v61) = (dat3 (V8 m ρ) c).arrAt 2 cfg3.N := W9_arr m ρ c 2

end Cert.KernelIdeal.Result

end
-- ==== Proof.BiasReluBlocks.lean ====
/-
  The bias-and-relu region, read as one function of the arrays it finds. Its grid has 20 points; point t takes rows
  5000·t … 5000·t + 4999 of the aggregated features [100000, 128], the whole bias row [1, 128] at every point, and
  writes the same rows of the output. Inside a block the body adds the bias row to every row and takes the maximum with
  zero, entry by entry. So entry (r, j) of the output array is max (A (r, j) + b (0, j), 0) whatever block row r sits
  in: the blocks are restrictions of one whole-array function, and the 20 blocks tile the 100000 rows (row r is in
  block r / 5000).
-/
import proofs.«110104_j21534966022499_1_alg».proof.Proof.Gen.KernelIdeal.Frame
import Idealize.ShloMosaic.Lib.ValueIdx
import Idealize.ShloMosaic.Lib.Pipeline.Value
import Idealize.ShloMosaic.Lib.ValueLayout

set_option maxRecDepth 16384

noncomputable section

namespace Cert.KernelIdeal.BiasReluBlocks

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-- The zero offset of a whole-block access. -/
theorem hz : (![0, 0] : Fin 2 → Nat) = fun _ => 0 := funext fun a => by fin_cases a <;> rfl

/-- Entry (r, j) of the layer's output: the aggregated feature plus the bias of column j, cut off below at zero. -/
def biasRelu (A : S100000x128.Idx → EReal) (b : S1x128.Idx → EReal) : S100000x128.Idx → EReal :=
  fun i => FloatOps.maximumf (F := Ideal) (φ := .f32) (FloatOps.addf (F := Ideal) (φ := .f32) (A i) (b (ix2 (0 : Fin 1) (⟨(i 1).val, (i 1).isLt⟩ : Fin 128))))
    (Scalar.ofBits (F := Ideal) .f32 0x00000000#32)

/-- The body's arithmetic at one entry of a block: the block's entry plus the bias row's entry in that column, against zero. -/
theorem pay_apply (x0 : Vec Ideal S5000x128 .f32) (x1 : Vec Ideal S1x128 .f32) (y : S5000x128.Idx) :
    k1_pay1 (F := Ideal) x0 x1 y = FloatOps.maximumf (F := Ideal) (φ := .f32) (FloatOps.addf (F := Ideal) (φ := .f32) (x0 y) (x1 (ix2 (0 : Fin 1) (⟨(y 1).val, (y 1).isLt⟩ : Fin 128))))
      (Scalar.ofBits (F := Ideal) .f32 0x00000000#32) := by
  unfold k1_pay1
  dsimp only
  rw [shapeCast_self, shapeCast_self]
  show FloatOps.maximumf (F := Ideal) (φ := .f32) (FloatOps.addf (F := Ideal) (φ := .f32) (x0 y) (broadcastTo S5000x128 x1 broadcasts_S1x128_S5000x128 y)) _ = _
  rw [broadcastTo_apply x1 broadcasts_S1x128_S5000x128 y (ix2 (0 : Fin 1) (⟨(y 1).val, (y 1).isLt⟩ : Fin 128))
    (fun a => by match a with | ⟨0, _⟩ => rfl | ⟨1, _⟩ => rfl)]
  rfl

/-- How the three windows' blocks sit in their arrays, decided once over the 20 grid points: the input block and the
    output block of point t are the same rows, block t of 5000; the bias row is the one block (0, 0) at every point. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole-array function. -/
theorem flushed_eq (V : (c : Dev nD) → (b : Ref sig .tc) → Buf (Elt Ideal) ((c : Thread nD τ).loc b)) (c : Dev nD) (t : Fin cfg1.N) :
    (dat1 (F := Ideal) V c).flushed 2 t = ((cfg1.win 2).blk t).view.read (Elt Ideal) (biasRelu (V c main_v43) (V c main_v44)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e0, e1, e2, e3, e4, e5⟩ := idx_facts t
  funext y
  refine (pay_apply _ _ y).trans ?_
  show _ = biasRelu (V c main_v43) (V c main_v44) (((cfg1.win 2).blk t).view.emb y)
  unfold biasRelu
  refine congrArg₂ (fun a b => FloatOps.maximumf (F := Ideal) (φ := .f32) (FloatOps.addf (F := Ideal) (φ := .f32) a b) (Scalar.ofBits (F := Ideal) .f32 0x00000000#32)) ?_ ?_
  · show (V c main_v43 : S100000x128.Idx → EReal) (((cfg1.win 0).blk t).view.emb y) = _
    refine congrArg (V c main_v43 : S100000x128.Idx → EReal) ?_
    funext a; apply Fin.ext
    match a with
    | ⟨0, _⟩ => show win1_0.index t (0 : Fin 2) * 5000 + 1 * (y 0).val = win1_2.index t (0 : Fin 2) * 5000 + 1 * (y 0).val; omega
    | ⟨1, _⟩ => show win1_0.index t (1 : Fin 2) * 128 + 1 * (y 1).val = win1_2.index t (1 : Fin 2) * 128 + 1 * (y 1).val; omega
  · show (V c main_v44 : S1x128.Idx → EReal) (((cfg1.win 1).blk t).view.emb (ix2 (0 : Fin 1) (⟨(y 1).val, (y 1).isLt⟩ : Fin 128))) = _
    refine congrArg (V c main_v44 : S1x128.Idx → EReal) ?_
    funext a; apply Fin.ext
    match a with
    | ⟨0, _⟩ => show win1_1.index t (0 : Fin 2) * 1 + 1 * 0 = 0; omega
    | ⟨1, _⟩ => show win1_1.index t (1 : Fin 2) * 128 + 1 * (y 1).val = win1_2.index t (1 : Fin 2) * 128 + 1 * (y 1).val; omega

/-- An index of the output array is in point t's block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- Every row is in some point's block: row r in block r / 5000. -/
theorem covered (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨e0, e1, e2, e3, e4, e5⟩ := idx_facts t
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The output array after the region: the whole-array function of the two arrays the region finds. -/
theorem array_eq (V : (c : Dev nD) → (b : Ref sig .tc) → Buf (Elt Ideal) ((c : Thread nD τ).loc b)) (c : Dev nD) :
    (dat1 (F := Ideal) V c).arrAt 2 cfg1.N = biasRelu (V c main_v43) (V c main_v44) :=
  (dat1 V c).arrAt_eq_of_cover 2 (biasRelu (V c main_v43) (V c main_v44)) (fun t _ => flushed_eq V c t) covered

end Cert.KernelIdeal.BiasReluBlocks

end
-- ==== Proof.LinearBlocks.lean ====
/- The two linear layers of the kernel program, read as matrix products.

   Regions 0 and 2 each walk a grid of 20 points. At point `t` the body sees rows `5000 t … 5000 t + 4999` of the
   region's input array (100000 rows of 128 entries), the WHOLE weight matrix (128 × 128, resp. 128 × 64), and writes
   the product of the two into rows `5000 t … 5000 t + 4999` of the output array. At the ideal values the two
   narrowings to bf16 are the identity and the product into the zero accumulator is the plain sum over the contracted
   coordinate, so entry `(p, q)` of a block is `∑ k, rows (p, k) · weights (k, q)`. The twenty row blocks tile the
   100000 rows, hence after the region every entry `(r, j)` of the output array is row `r` of the input array times
   column `j` of the weight matrix — whatever block the row sits in. Everything is stated at the buffer contents `V`
   the region finds on entry, as a variable. -/
import proofs.«110104_j21534966022499_1_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.LinearBlocks

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The body's accesses all start at the origin of their buffer. -/
theorem zero_offsets : (![0, 0] : Fin 2 → Nat) = fun _ => 0 := funext fun a => by fin_cases a <;> rfl

/-! ## Region 0: rows of the input times the first weight matrix -/

theorem block_product1_lhs_row (i : S5000x128.Idx) (s : dot_S5000x128_S128x128_S5000x128_1_0_0_1_n_n.contr.Idx) :
    (dot_S5000x128_S128x128_S5000x128_1_0_0_1_n_n.lhsIdx i s 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem block_product1_lhs_col (i : S5000x128.Idx) (s : dot_S5000x128_S128x128_S5000x128_1_0_0_1_n_n.contr.Idx) :
    (dot_S5000x128_S128x128_S5000x128_1_0_0_1_n_n.lhsIdx i s 1).val = (s ⟨0, by decide⟩).val :=
  dot_S5000x128_S128x128_S5000x128_1_0_0_1_n_n.lhsIdx_val_of_single rfl i s
theorem block_product1_rhs_row (i : S5000x128.Idx) (s : dot_S5000x128_S128x128_S5000x128_1_0_0_1_n_n.contr.Idx) :
    (dot_S5000x128_S128x128_S5000x128_1_0_0_1_n_n.rhsIdx i s 0).val = (s ⟨0, by decide⟩).val :=
  dot_S5000x128_S128x128_S5000x128_1_0_0_1_n_n.rhsIdx_val_of_single rfl i s
theorem block_product1_rhs_col (i : S5000x128.Idx) (s : dot_S5000x128_S128x128_S5000x128_1_0_0_1_n_n.contr.Idx) :
    (dot_S5000x128_S128x128_S5000x128_1_0_0_1_n_n.rhsIdx i s 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's product at an entry of the block: row `p` of the staged rows times column `q` of the staged
    weights, summed over the contracted coordinate. The two narrowings to bf16 change nothing at the ideal values and
    the accumulator is the zero splat. -/
theorem block_product1 (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  simp only [matmul]
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact block_product1_lhs_row _ _
    | ⟨1, _⟩ => exact (block_product1_lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (block_product1_rhs_row _ _).trans hk
    | ⟨1, _⟩ => exact block_product1_rhs_col _ _)
  rw [el, er]
  rfl

/-- The printed index maps over the grid's `20` points: the input rows and the output rows move together, block `t` at
    point `t`; the weights stay at their one block. -/
theorem block_indices0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The staged rows at point `t` are rows `5000 t … 5000 t + 4999` of the input array. -/
theorem staged_rows0 (c : Dev nD) (t : Fin cfg0.N) (p : Fin 5000) (k : Fin 128) (i : S100000x128.Idx)
    (h0 : (i 0).val = 5000 * t.val + p.val) (h1 : (i 1).val = k.val) :
    (iblk0 V c 0 t : Vec Ideal S5000x128 .f32) (ix2 p k) = (V c main_arg0 : S100000x128.Idx → EReal) i := by
  obtain ⟨e0, e1, -, -, -, -⟩ := block_indices0 t
  unfold iblk0
  rw [View.read_apply]
  show V c main_arg0 _ = V c main_arg0 _
  congr 1
  funext a
  apply Fin.ext
  match a with
  | ⟨0, _⟩ => show win0_0.index t (0 : Fin 2) * 5000 + 1 * p.val = (i 0).val; rw [e0, h0]; omega
  | ⟨1, _⟩ => show win0_0.index t (1 : Fin 2) * 128 + 1 * k.val = (i 1).val; rw [e1, h1]; omega

/-- The staged weights are the whole weight matrix, at every point. -/
theorem staged_weights0 (c : Dev nD) (t : Fin cfg0.N) (k : Fin 128) (q : Fin 128) :
    (iblk0 V c 1 t : Vec Ideal S128x128 .f32) (ix2 k q) = (V c main_arg2 : S128x128.Idx → EReal) (ix2 k q) := by
  obtain ⟨-, -, e2, e3, -, -⟩ := block_indices0 t
  unfold iblk0
  rw [View.read_apply]
  show V c main_arg2 _ = V c main_arg2 _
  congr 1
  funext a
  apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- Every output row is that row of the input times the weight matrix: the array the region's write-backs are blocks of. -/
def rowsTimes0 (A : S100000x128.Idx → EReal) (W : S128x128.Idx → EReal) : S100000x128.Idx → EReal :=
  fun i => ∑ k : Fin 128, A (ix2 (n0 := 100000) (n1 := 128) (i 0) k) * W (ix2 (n0 := 128) (n1 := 128) k (i 1))

/-- What point `t` writes back is block `t` of that array. -/
theorem written_block0 (c : Dev nD) (t : Fin cfg0.N) :
    (dat0 (F := Ideal) V c).flushed 2 t
      = ((cfg0.win 2).blk t).view.read (Elt Ideal) (rowsTimes0 (V c main_arg0) (V c main_arg2)) := by
  show (cfg0.win 2).cut (grid0.coords t) ((dat0 (F := Ideal) V c).after 2 t) = _
  rw [after0_2]
  unfold out0_2
  rw [View.canon_unit_zero zero_offsets]
  simp only [View.ld_unit_zero (S := S5000x128) zero_offsets, View.ld_unit_zero (S := S128x128) zero_offsets]
  obtain ⟨-, -, -, -, e4, e5⟩ := block_indices0 t
  funext y
  obtain ⟨p, q, rfl⟩ : ∃ (p : Fin 5000) (q : Fin 128), y = ix2 p q := ⟨y 0, y 1, eq_ix2 y⟩
  show k0_pay1 (F := Ideal) (iblk0 V c 0 t) (iblk0 V c 1 t) (ix2 p q)
    = rowsTimes0 (V c main_arg0) (V c main_arg2) (((cfg0.win 2).blk t).view.emb (ix2 p q))
  refine (block_product1 _ _ p q).trans ?_
  have hrow : ((((cfg0.win 2).blk t).view.emb (ix2 p q)) 0).val = 5000 * t.val + p.val := by
    show win0_2.index t (0 : Fin 2) * 5000 + 1 * p.val = _
    rw [e4]; omega
  have hcol : ((((cfg0.win 2).blk t).view.emb (ix2 p q)) 1).val = q.val := by
    show win0_2.index t (1 : Fin 2) * 128 + 1 * q.val = _
    rw [e5]; omega

  generalize ((cfg0.win 2).blk t).view.emb (ix2 p q) = i at hrow hcol ⊢
  unfold rowsTimes0
  refine Finset.sum_congr rfl fun k _ => ?_
  refine congrArg₂ (· * ·) (staged_rows0 V c t p k _ hrow rfl) ((staged_weights0 V c t k q).trans (congrArg _ ?_))
  funext a
  apply Fin.ext
  match a with
  | ⟨0, _⟩ => rfl
  | ⟨1, _⟩ => exact hcol.symm

/-- An index of the output array lies in point `t`'s block iff each coordinate lies in the block's range on its axis. -/
theorem mem_block0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- The twenty blocks of 5000 rows tile the 100000 rows: row `r` is written by point `r / 5000`. -/
theorem every_row_written0 (i : S100000x128.Idx) :
    ∃ t : Fin cfg0.N, (cfg0.win 2).flush t = true ∧ i ∈ ((cfg0.win 2).blk t).view.set := by
  have hN : cfg0.N = 20 := N_0
  have hi0 : (i 0).val < 100000 := (i 0).isLt
  have hi1 : (i 1).val < 128 := (i 1).isLt
  obtain ⟨t, ht⟩ : ∃ t : Fin cfg0.N, t.val = (i 0).val / 5000 := ⟨⟨(i 0).val / 5000, by rw [hN]; omega⟩, rfl⟩
  obtain ⟨-, -, -, -, e4, e5⟩ := block_indices0 t
  refine ⟨t, flush0_2 t, ?_⟩
  rw [mem_block0]
  intro a
  match a with
  | ⟨0, _⟩ =>
    show win0_2.index t (0 : Fin 2) * 5000 ≤ (i 0).val ∧ (i 0).val < win0_2.index t (0 : Fin 2) * 5000 + 5000
    rw [e4, ht]; omega
  | ⟨1, _⟩ =>
    show win0_2.index t (1 : Fin 2) * 128 ≤ (i 1).val ∧ (i 1).val < win0_2.index t (1 : Fin 2) * 128 + 128
    rw [e5]; omega

/-- So the output array ends holding, row by row, the input's row times the weight matrix. -/
theorem rows_times_W1_array (c : Dev nD) :
    (dat0 (F := Ideal) V c).arrAt 2 cfg0.N = rowsTimes0 (V c main_arg0) (V c main_arg2) :=
  (dat0 (F := Ideal) V c).arrAt_eq_of_cover 2 (rowsTimes0 (V c main_arg0) (V c main_arg2))
    (fun t _ => written_block0 V c t) every_row_written0

/-- That array at an entry: the sum over the contracted coordinate of the products of the row's and the column's entries. -/
theorem rowsTimes0_apply (A : S100000x128.Idx → EReal) (W : S128x128.Idx → EReal) (r : Fin 100000) (j : Fin 128) :
    rowsTimes0 A W (ix2 r j) = ∑ k : Fin 128, A (ix2 r k) * W (ix2 k j) := rfl

/-- After region 0, entry `(r, j)` of its output array is row `r` of the region's input array times column `j` of the first weight matrix, whatever block the row sits in. -/
theorem rows_times_W1 (c : Dev nD) (r : Fin 100000) (j : Fin 128) :
    ((dat0 (F := Ideal) V c).arrAt 2 cfg0.N : S100000x128.Idx → EReal) (ix2 r j)
      = rowsTimes0 (V c main_arg0) (V c main_arg2) (ix2 r j) :=
  congrFun (rows_times_W1_array V c) (ix2 r j)

/-- The same with the two arrays the region finds NAMED: whatever they are known to be, the entry is the sum of products
    of their entries. -/
theorem rows_times_W1_of (c : Dev nD) (A : S100000x128.Idx → EReal) (W : S128x128.Idx → EReal)
    (hA : V c main_arg0 = A) (hW : V c main_arg2 = W) (r : Fin 100000) (j : Fin 128) :
    ((dat0 (F := Ideal) V c).arrAt 2 cfg0.N : S100000x128.Idx → EReal) (ix2 r j)
      = ∑ k : Fin 128, A (ix2 r k) * W (ix2 k j) := by
  subst hA hW
  exact congrFun (rows_times_W1_array V c) (ix2 r j)

/-! ## Region 2: rows of the hidden layer times the second weight matrix -/

theorem block_product2_lhs_row (i : S5000x64.Idx) (s : dot_S5000x128_S128x64_S5000x64_1_0_0_1_n_n.contr.Idx) :
    (dot_S5000x128_S128x64_S5000x64_1_0_0_1_n_n.lhsIdx i s 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem block_product2_lhs_col (i : S5000x64.Idx) (s : dot_S5000x128_S128x64_S5000x64_1_0_0_1_n_n.contr.Idx) :
    (dot_S5000x128_S128x64_S5000x64_1_0_0_1_n_n.lhsIdx i s 1).val = (s ⟨0, by decide⟩).val :=
  dot_S5000x128_S128x64_S5000x64_1_0_0_1_n_n.lhsIdx_val_of_single rfl i s
theorem block_product2_rhs_row (i : S5000x64.Idx) (s : dot_S5000x128_S128x64_S5000x64_1_0_0_1_n_n.contr.Idx) :
    (dot_S5000x128_S128x64_S5000x64_1_0_0_1_n_n.rhsIdx i s 0).val = (s ⟨0, by decide⟩).val :=
  dot_S5000x128_S128x64_S5000x64_1_0_0_1_n_n.rhsIdx_val_of_single rfl i s
theorem block_product2_rhs_col (i : S5000x64.Idx) (s : dot_S5000x128_S128x64_S5000x64_1_0_0_1_n_n.contr.Idx) :
    (dot_S5000x128_S128x64_S5000x64_1_0_0_1_n_n.rhsIdx i s 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The body's product at an entry of the block: row `p` of the staged rows times column `q` of the staged
    weights, summed over the contracted coordinate. The shape cast is onto the same shape, the two narrowings to bf16 change nothing at the
    ideal values and the accumulator is the zero splat. -/
theorem block_product2 (x0 : Vec Ideal S5000x128 .f32) (x1 : Vec Ideal S128x64 .f32) (p : Fin 5000) (q : Fin 64) :
    k2_pay1 (F := Ideal) x0 x1 (ix2 p q) = ∑ k : Fin 128, x0 (ix2 p k) * x1 (ix2 k q) := by
  unfold k2_pay1
  simp only [matmul, shapeCast_self]
  refine (Ideal.matmul_constant_zero_apply dot_S5000x128_S128x64_S5000x64_1_0_0_1_n_n none _ _ (ix2 p q)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact block_product2_lhs_row _ _
    | ⟨1, _⟩ => exact (block_product2_lhs_col _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (block_product2_rhs_row _ _).trans hk
    | ⟨1, _⟩ => exact block_product2_rhs_col _ _)
  rw [el, er]
  rfl

/-- The printed index maps over the grid's `20` points: the input rows and the output rows move together, block `t` at
    point `t`; the weights stay at their one block. -/
theorem block_indices2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The staged rows at point `t` are rows `5000 t … 5000 t + 4999` of the input array. -/
theorem staged_rows2 (c : Dev nD) (t : Fin cfg2.N) (p : Fin 5000) (k : Fin 128) (i : S100000x128.Idx)
    (h0 : (i 0).val = 5000 * t.val + p.val) (h1 : (i 1).val = k.val) :
    (iblk2 V c 0 t : Vec Ideal S5000x128 .f32) (ix2 p k) = (V c main_v45 : S100000x128.Idx → EReal) i := by
  obtain ⟨e0, e1, -, -, -, -⟩ := block_indices2 t
  unfold iblk2
  rw [View.read_apply]
  show V c main_v45 _ = V c main_v45 _
  congr 1
  funext a
  apply Fin.ext
  match a with
  | ⟨0, _⟩ => show win2_0.index t (0 : Fin 2) * 5000 + 1 * p.val = (i 0).val; rw [e0, h0]; omega
  | ⟨1, _⟩ => show win2_0.index t (1 : Fin 2) * 128 + 1 * k.val = (i 1).val; rw [e1, h1]; omega

/-- The staged weights are the whole weight matrix, at every point. -/
theorem staged_weights2 (c : Dev nD) (t : Fin cfg2.N) (k : Fin 128) (q : Fin 64) :
    (iblk2 V c 1 t : Vec Ideal S128x64 .f32) (ix2 k q) = (V c main_arg4 : S128x64.Idx → EReal) (ix2 k q) := by
  obtain ⟨-, -, e2, e3, -, -⟩ := block_indices2 t
  unfold iblk2
  rw [View.read_apply]
  show V c main_arg4 _ = V c main_arg4 _
  congr 1
  funext a
  apply Fin.ext
  match a with
  | ⟨0, _⟩ => show win2_1.index t (0 : Fin 2) * 128 + 1 * k.val = k.val; rw [e2]; omega
  | ⟨1, _⟩ => show win2_1.index t (1 : Fin 2) * 64 + 1 * q.val = q.val; rw [e3]; omega

/-- Every output row is that row of the input times the weight matrix: the array the region's write-backs are blocks of. -/
def rowsTimes2 (A : S100000x128.Idx → EReal) (W : S128x64.Idx → EReal) : S100000x64.Idx → EReal :=
  fun i => ∑ k : Fin 128, A (ix2 (n0 := 100000) (n1 := 128) (i 0) k) * W (ix2 (n0 := 128) (n1 := 64) k (i 1))

/-- What point `t` writes back is block `t` of that array. -/
theorem written_block2 (c : Dev nD) (t : Fin cfg2.N) :
    (dat2 (F := Ideal) V c).flushed 2 t
      = ((cfg2.win 2).blk t).view.read (Elt Ideal) (rowsTimes2 (V c main_v45) (V c main_arg4)) := by
  show (cfg2.win 2).cut (grid2.coords t) ((dat2 (F := Ideal) V c).after 2 t) = _
  rw [after2_2]
  unfold out2_2
  rw [View.canon_unit_zero zero_offsets]
  simp only [View.ld_unit_zero (S := S5000x128) zero_offsets, View.ld_unit_zero (S := S128x64) zero_offsets]
  obtain ⟨-, -, -, -, e4, e5⟩ := block_indices2 t
  funext y
  obtain ⟨p, q, rfl⟩ : ∃ (p : Fin 5000) (q : Fin 64), y = ix2 p q := ⟨y 0, y 1, eq_ix2 y⟩
  show k2_pay1 (F := Ideal) (iblk2 V c 0 t) (iblk2 V c 1 t) (ix2 p q)
    = rowsTimes2 (V c main_v45) (V c main_arg4) (((cfg2.win 2).blk t).view.emb (ix2 p q))
  refine (block_product2 _ _ p q).trans ?_
  have hrow : ((((cfg2.win 2).blk t).view.emb (ix2 p q)) 0).val = 5000 * t.val + p.val := by
    show win2_2.index t (0 : Fin 2) * 5000 + 1 * p.val = _
    rw [e4]; omega
  have hcol : ((((cfg2.win 2).blk t).view.emb (ix2 p q)) 1).val = q.val := by
    show win2_2.index t (1 : Fin 2) * 64 + 1 * q.val = _
    rw [e5]; omega

  generalize ((cfg2.win 2).blk t).view.emb (ix2 p q) = i at hrow hcol ⊢
  unfold rowsTimes2
  refine Finset.sum_congr rfl fun k _ => ?_
  refine congrArg₂ (· * ·) (staged_rows2 V c t p k _ hrow rfl) ((staged_weights2 V c t k q).trans (congrArg _ ?_))
  funext a
  apply Fin.ext
  match a with
  | ⟨0, _⟩ => rfl
  | ⟨1, _⟩ => exact hcol.symm

/-- An index of the output array lies in point `t`'s block iff each coordinate lies in the block's range on its axis. -/
theorem mem_block2 (t : Fin cfg2.N) (i : S100000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v46).slice (win2_2.rect t)).set ↔ _
  rw [View.set_slice_whole, Rect.mem_set_unit]
  exact Iff.rfl

/-- The twenty blocks of 5000 rows tile the 100000 rows: row `r` is written by point `r / 5000`. -/
theorem every_row_written2 (i : S100000x64.Idx) :
    ∃ t : Fin cfg2.N, (cfg2.win 2).flush t = true ∧ i ∈ ((cfg2.win 2).blk t).view.set := by
  have hN : cfg2.N = 20 := N_2
  have hi0 : (i 0).val < 100000 := (i 0).isLt
  have hi1 : (i 1).val < 64 := (i 1).isLt
  obtain ⟨t, ht⟩ : ∃ t : Fin cfg2.N, t.val = (i 0).val / 5000 := ⟨⟨(i 0).val / 5000, by rw [hN]; omega⟩, rfl⟩
  obtain ⟨-, -, -, -, e4, e5⟩ := block_indices2 t
  refine ⟨t, flush2_2 t, ?_⟩
  rw [mem_block2]
  intro a
  match a with
  | ⟨0, _⟩ =>
    show win2_2.index t (0 : Fin 2) * 5000 ≤ (i 0).val ∧ (i 0).val < win2_2.index t (0 : Fin 2) * 5000 + 5000
    rw [e4, ht]; omega
  | ⟨1, _⟩ =>
    show win2_2.index t (1 : Fin 2) * 64 ≤ (i 1).val ∧ (i 1).val < win2_2.index t (1 : Fin 2) * 64 + 64
    rw [e5]; omega

/-- So the output array ends holding, row by row, the input's row times the weight matrix. -/
theorem rows_times_W2_array (c : Dev nD) :
    (dat2 (F := Ideal) V c).arrAt 2 cfg2.N = rowsTimes2 (V c main_v45) (V c main_arg4) :=
  (dat2 (F := Ideal) V c).arrAt_eq_of_cover 2 (rowsTimes2 (V c main_v45) (V c main_arg4))
    (fun t _ => written_block2 V c t) every_row_written2

/-- That array at an entry: the sum over the contracted coordinate of the products of the row's and the column's entries. -/
theorem rowsTimes2_apply (A : S100000x128.Idx → EReal) (W : S128x64.Idx → EReal) (r : Fin 100000) (j : Fin 64) :
    rowsTimes2 A W (ix2 r j) = ∑ k : Fin 128, A (ix2 r k) * W (ix2 k j) := rfl

/-- After region 2, entry `(r, j)` of its output array is row `r` of the region's input array times column `j` of the second weight matrix, whatever block the row sits in. -/
theorem rows_times_W2 (c : Dev nD) (r : Fin 100000) (j : Fin 64) :
    ((dat2 (F := Ideal) V c).arrAt 2 cfg2.N : S100000x64.Idx → EReal) (ix2 r j)
      = rowsTimes2 (V c main_v45) (V c main_arg4) (ix2 r j) :=
  congrFun (rows_times_W2_array V c) (ix2 r j)

/-- The same with the two arrays the region finds NAMED: whatever they are known to be, the entry is the sum of products
    of their entries. -/
theorem rows_times_W2_of (c : Dev nD) (A : S100000x128.Idx → EReal) (W : S128x64.Idx → EReal)
    (hA : V c main_v45 = A) (hW : V c main_arg4 = W) (r : Fin 100000) (j : Fin 64) :
    ((dat2 (F := Ideal) V c).arrAt 2 cfg2.N : S100000x64.Idx → EReal) (ix2 r j)
      = ∑ k : Fin 128, A (ix2 r k) * W (ix2 k j) := by
  subst hA hW
  exact congrFun (rows_times_W2_array V c) (ix2 r j)

end Cert.KernelIdeal.LinearBlocks

end
-- ==== Proof.LogSoftmaxBlocks.lean ====
/- Region 3 of the kernel's program: the bias add and the row-wise log-softmax over 64 lanes, read off the generated
   frame. Each output row of the [100000, 64] result is the log-softmax of that row of the input plus the bias row,
   whatever block of 5000 rows the row sits in: the body's arithmetic read at one element of a block, then the twenty
   blocks put back together into the array. -/
import proofs.«110104_j21534966022499_1_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.LogSoftmaxBlocks

open Cert.KernelIdeal Cert.KernelIdeal.Gen Idealize.ShloMosaic Idealize.ShloMosaic.TcCoe Idealize.SL.Sem
open Idealize.ShloMosaic.Pipeline (Dat)
open Idealize.ShloMosaic.ValueIdx

/-! ## The row function -/

/-- The maximum of a row of 64 extended reals: the fold of `max` from `-∞`. -/
def rowMax (z : Fin 64 → EReal) : EReal := (Finset.univ : Finset (Fin 64)).fold max ⊥ z

/-- The log-softmax of a row at lane `q`: the entry less the row's maximum, less the logarithm of the sum over the
    row of the exponentials of the entries less the maximum. -/
def rowLogSoftmax (z : Fin 64 → EReal) (q : Fin 64) : EReal :=
  (z q - rowMax z) - Ideal.log (∑ j : Fin 64, Ideal.exp (z j - rowMax z))

/-- The bit pattern of `-∞` denotes the bottom of the extended reals. -/
theorem ofBits_neg_inf : Ideal.ofBits .f32 0xFF800000#32 = ⊥ := by simp [Ideal.ofBits, Ideal.ieee]

/-! ## Column forms of the layout operations, read at an index -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The body's arithmetic at one element of a block -/

/-- The index the lane reduction inserts lane `k` into row `p` at is `(p, k)`. -/
theorem lift_row (p : Fin 5000) (k : Fin 64) : reduces_S5000x64_S5000.lift (ix1 p) k = ix2 p k :=
  funext fun a => Fin.ext (by match a with | ⟨0, _⟩ => rfl | ⟨1, _⟩ => rfl)

/-- The lane maximum of a block at row `p` is the maximum of that row. -/
theorem laneMax_apply (z : FVec Ideal S5000x64 .f32) (p : Fin 5000) :
    multiReduction (F := Ideal) .maximumf [1] S5000 z 0xFF800000#32 reduces_S5000x64_S5000 (.inl rfl) rfl (ix1 p)
      = rowMax (fun j => z (ix2 p j)) := by
  refine (Ideal.multiReduction_maximumf_single z 0xFF800000#32 reduces_S5000x64_S5000 (.inl rfl) rfl (ix1 p)).trans ?_
  show (Finset.univ : Finset (Fin 64)).fold max (Ideal.ofBits .f32 0xFF800000#32) (fun k => z (reduces_S5000x64_S5000.lift (ix1 p) k)) = _
  rw [ofBits_neg_inf]
  unfold rowMax
  exact congrArg (fun f => (Finset.univ : Finset (Fin 64)).fold max ⊥ f) (funext fun k => congrArg z (lift_row p k))

/-- The lane sum of a block at row `p` is the sum over that row. -/
theorem laneSum_apply (e : FVec Ideal S5000x64 .f32) (p : Fin 5000) :
    multiReduction (F := Ideal) .add [1] S5000 e 0x00000000#32 reduces_S5000x64_S5000 (.inl rfl) rfl (ix1 p)
      = ∑ j : Fin 64, e (ix2 p j) := by
  refine (Ideal.multiReduction_add_single e 0x00000000#32 reduces_S5000x64_S5000 (.inl rfl) rfl (ix1 p)).trans ?_
  exact Finset.sum_congr rfl fun k _ => congrArg e (lift_row p k)

/-- The exponential and the logarithm of a block, read at an index. -/
theorem exp_apply {s : Shape} (x : FVec Ideal s .f32) (i : s.Idx) : exp x i = Ideal.exp (x i) := rfl
theorem log_apply {s : Shape} (x : FVec Ideal s .f32) (i : s.Idx) : log x i = Ideal.log (x i) := rfl

/-- The input block plus the bias row broadcast over its rows. -/
def biased (x0 : Vec Ideal S5000x64 .f32) (x1 : Vec Ideal S1x64 .f32) : FVec Ideal S5000x64 .f32 :=
  addf (shapeCast S5000x64 x0 shapeCasts_S5000x64_S5000x64)
    (broadcastTo S5000x64 (shapeCast S1x64 x1 shapeCasts_S1x64_S1x64) broadcasts_S1x64_S5000x64)

/-- At `(p, j)` it is the block's entry plus the bias at lane `j`. -/
theorem biased_apply (x0 : Vec Ideal S5000x64 .f32) (x1 : Vec Ideal S1x64 .f32) (p : Fin 5000) (j : Fin 64) :
    biased x0 x1 (ix2 p j) = x0 (ix2 p j) + x1 (ix2 (0 : Fin 1) j) := by
  unfold biased
  rw [addf_apply, shapeCast_self, shapeCast_self, broadcastTo_1b_ab_apply]

/-- A block less its rows' maxima, each maximum spread back over its row. -/
def shifted (z : FVec Ideal S5000x64 .f32) : FVec Ideal S5000x64 .f32 :=
  subf z (broadcastTo S5000x64 (shapeCast S5000x1
    (multiReduction .maximumf [1] S5000 z 0xFF800000#32 reduces_S5000x64_S5000 (.inl rfl) rfl) shapeCasts_S5000_S5000x1)
    broadcasts_S5000x1_S5000x64)

/-- At `(p, j)` it is the entry less the maximum of row `p`. -/
theorem shifted_apply (z : FVec Ideal S5000x64 .f32) (p : Fin 5000) (j : Fin 64) :
    shifted z (ix2 p j) = z (ix2 p j) - rowMax (fun l => z (ix2 p l)) := by
  unfold shifted
  rw [subf_apply, broadcastTo_a1_ab_apply, shapeCast_a_a1_apply, laneMax_apply]

/-- The shifted block less the logarithm of its rows' sums of exponentials. -/
def normalised (z : FVec Ideal S5000x64 .f32) : FVec Ideal S5000x64 .f32 :=
  subf (shifted z) (broadcastTo S5000x64 (log (shapeCast S5000x1
    (multiReduction .add [1] S5000 (exp (shifted z)) 0x00000000#32 reduces_S5000x64_S5000 (.inl rfl) rfl) shapeCasts_S5000_S5000x1))
    broadcasts_S5000x1_S5000x64)

/-- At `(p, q)` it is the log-softmax of row `p` at lane `q`. -/
theorem normalised_apply (z : FVec Ideal S5000x64 .f32) (p : Fin 5000) (q : Fin 64) :
    normalised z (ix2 p q) = rowLogSoftmax (fun j => z (ix2 p j)) q := by
  unfold normalised
  rw [subf_apply, broadcastTo_a1_ab_apply, log_apply, shapeCast_a_a1_apply, laneSum_apply, shifted_apply]
  unfold rowLogSoftmax
  exact congrArg (fun s => z (ix2 p q) - rowMax (fun l => z (ix2 p l)) - Ideal.log s)
    (Finset.sum_congr rfl fun j _ => by rw [exp_apply, shifted_apply])

/-- The body's payload is those three steps in turn. -/
theorem payload_eq (x0 : Vec Ideal S5000x64 .f32) (x1 : Vec Ideal S1x64 .f32) :
    k3_pay1 x0 x1 = normalised (biased x0 x1) := rfl

/-- THE PAYLOAD AT `(p, q)`: the log-softmax, at lane `q`, of row `p` of the input block plus the bias row. -/
theorem payload_apply (x0 : Vec Ideal S5000x64 .f32) (x1 : Vec Ideal S1x64 .f32) (p : Fin 5000) (q : Fin 64) :
    k3_pay1 x0 x1 (ix2 p q) = rowLogSoftmax (fun j => x0 (ix2 p j) + x1 (ix2 (0 : Fin 1) j)) q := by
  rw [payload_eq, normalised_apply]
  exact congrArg (fun f => rowLogSoftmax f q) (funext fun j => biased_apply x0 x1 p j)

/-! ## From the blocks to the array -/

section Blocks
variable (V : (c : Dev nD) → (b : Ref sig .tc) → Buf (Elt Ideal) ((c : Thread nD τ).loc b))

theorem zero_offsets : (![0, 0] : Fin 2 → Nat) = fun _ => 0 := funext fun a => by fin_cases a <;> rfl

/-- Row `r` of the input array plus the bias row. -/
def biasedRow (a : S100000x64.Idx → EReal) (b : S1x64.Idx → EReal) (r : Fin 100000) : Fin 64 → EReal :=
  fun j => a (ix2 r j) + b (ix2 (0 : Fin 1) j)

theorem biasedRow_apply (a : S100000x64.Idx → EReal) (b : S1x64.Idx → EReal) (r : Fin 100000) (j : Fin 64) :
    biasedRow a b r j = a (ix2 r j) + b (ix2 (0 : Fin 1) j) := rfl

/-- What the output array ends holding, as one function of the input array and the bias row: at `(r, q)` the
    log-softmax, at lane `q`, of row `r` of the input plus the bias row. -/
def G (a : S100000x64.Idx → EReal) (b : S1x64.Idx → EReal) : S100000x64.Idx → EReal :=
  fun i => rowLogSoftmax (biasedRow a b (i 0)) (i 1)

/-- The windows' index maps at each of the twenty grid points: the input's and the output's block at point `t` is
    row block `t`, the bias row's block is the whole row. -/
theorem index_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row `p` of the input's block at point `t` is row `5000 t + p` of the input array. -/
theorem iblk_row (c : Dev nD) (t : Fin cfg3.N) (p : Fin 5000) (j : Fin 64) (r : Fin 100000)
    (hr : r.val = t.val * 5000 + p.val) :
    (iblk3 V c 0 t : Vec Ideal S5000x64 .f32) (ix2 p j) = (V c main_v59 : S100000x64.Idx → EReal) (ix2 r j) := by
  obtain ⟨e00, e01, -, -, -, -⟩ := index_facts t
  unfold iblk3
  rw [View.read_apply]
  show (V c main_v59 : S100000x64.Idx → EReal) _ = (V c main_v59 : S100000x64.Idx → EReal) _
  congr 1
  funext a
  apply Fin.ext
  match a with
  | ⟨0, _⟩ => show win3_0.index t 0 * 5000 + 1 * p.val = r.val; rw [e00, hr]; omega
  | ⟨1, _⟩ => show win3_0.index t 1 * 64 + 1 * j.val = j.val; rw [e01]; omega

/-- The bias row's block at every point is the bias row. -/
theorem iblk_bias (c : Dev nD) (t : Fin cfg3.N) (j : Fin 64) :
    (iblk3 V c 1 t : Vec Ideal S1x64 .f32) (ix2 (0 : Fin 1) j) = (V c main_v60 : S1x64.Idx → EReal) (ix2 (0 : Fin 1) j) := by
  obtain ⟨-, -, e10, e11, -, -⟩ := index_facts t
  unfold iblk3
  rw [View.read_apply]
  show (V c main_v60 : S1x64.Idx → EReal) _ = (V c main_v60 : S1x64.Idx → EReal) _
  congr 1
  funext a
  apply Fin.ext
  match a with
  | ⟨0, _⟩ => show win3_1.index t 0 * 1 + 1 * 0 = 0; rw [e10]
  | ⟨1, _⟩ => show win3_1.index t 1 * 64 + 1 * j.val = j.val; rw [e11]; omega

/-- The body's result at element `y` of the block at point `t` is `G` at the array index `i` that sits there. -/
theorem block_apply (c : Dev nD) (t : Fin cfg3.N) (y : S5000x64.Idx) (i : S100000x64.Idx)
    (h0 : (i 0).val = t.val * 5000 + (y 0).val) (h1 : (i 1).val = (y 1).val) :
    k3_pay1 (iblk3 V c 0 t) (iblk3 V c 1 t) y = G (V c main_v59) (V c main_v60) i := by
  obtain ⟨p, q, rfl⟩ : ∃ (p : Fin 5000) (q : Fin 64), y = ix2 p q := ⟨y 0, y 1, eq_ix2 y⟩
  obtain ⟨r, s, rfl⟩ : ∃ (r : Fin 100000) (s : Fin 64), i = ix2 r s := ⟨i 0, i 1, eq_ix2 i⟩
  have hr : r.val = t.val * 5000 + p.val := h0
  obtain rfl : s = q := Fin.ext h1
  rw [payload_apply]
  show _ = rowLogSoftmax (biasedRow (V c main_v59) (V c main_v60) r) s
  exact congrArg (fun f => rowLogSoftmax f s) (funext fun j => by rw [iblk_row V c t p j r hr, iblk_bias V c t j]; rfl)

/-- WHAT POINT `t` WRITES BACK is block `t` of `G` of the two arrays as the region finds them. -/
theorem flushed_eq (c : Dev nD) (t : Fin cfg3.N) :
    (dat3 (F := Ideal) V c).flushed 2 t
      = ((cfg3.win 2).blk t).view.read (Elt Ideal) (G (V c main_v59) (V c main_v60)) := by
  show (cfg3.win 2).cut (grid3.coords t) ((dat3 (F := Ideal) V c).after 2 t) = _
  rw [after3_2]
  unfold out3_2
  rw [View.canon_unit_zero zero_offsets]
  simp only [View.ld_unit_zero (S := S5000x64) zero_offsets, View.ld_unit_zero (S := S1x64) zero_offsets]
  obtain ⟨-, -, -, -, e20, e21⟩ := index_facts t
  funext j
  refine block_apply V c t ((cfg3.win 2).xinj (grid3.coords t) j) (((cfg3.win 2).blk t).view.emb j) ?_ ?_
  · show win3_2.index t (0 : Fin 2) * 5000 + 1 * (j 0).val = t.val * 5000 + (j 0).val
    rw [e20]; omega
  · show win3_2.index t (1 : Fin 2) * 64 + 1 * (j 1).val = (j 1).val
    rw [e21]; omega

/-- An index of the array is in point `t`'s block iff each coordinate is in the block's range on its axis. -/
theorem mem_blk (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v61).slice (win3_2.rect t)).set ↔ _
  rw [View.set_slice_whole, Rect.mem_set_unit]
  exact Iff.rfl

/-- The twenty row blocks tile the array: row `r` sits in the block of point `r / 5000`. -/
theorem cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 20 := N_3
  have ht : (i 0).val / 5000 < cfg3.N := Nat.lt_of_lt_of_eq (by omega : (i 0).val / 5000 < 20) hN.symm
  obtain ⟨-, -, -, -, e20, e21⟩ := index_facts ⟨(i 0).val / 5000, ht⟩
  refine ⟨⟨(i 0).val / 5000, ht⟩, flush3_2 _, ?_⟩
  rw [mem_blk]
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    rw [e20]
    show (i 0).val / 5000 * 5000 ≤ (i 0).val ∧ (i 0).val < (i 0).val / 5000 * 5000 + 5000
    omega
  | ⟨1, _⟩ =>
    show win3_2.index ⟨(i 0).val / 5000, ht⟩ (1 : Fin 2) * 64 ≤ (i 1).val ∧ (i 1).val < win3_2.index ⟨(i 0).val / 5000, ht⟩ (1 : Fin 2) * 64 + 64
    rw [e21]; omega

/-- THE ARRAY after the region's run is `G` of the two arrays as the region finds them. -/
theorem array_eq (c : Dev nD) :
    (dat3 (F := Ideal) V c).arrAt 2 cfg3.N = G (V c main_v59) (V c main_v60) :=
  (dat3 (F := Ideal) V c).arrAt_eq_of_cover 2 (G (V c main_v59) (V c main_v60)) (fun t _ => flushed_eq V c t) cover

/-- EACH OUTPUT ROW is the log-softmax of that row of the input plus the bias row, whatever block the row sits in. -/
theorem rows_logsoftmax (c : Dev nD) (r : Fin 100000) (q : Fin 64) :
    (dat3 (F := Ideal) V c).arrAt 2 cfg3.N (ix2 r q)
      = rowLogSoftmax (biasedRow (V c main_v59) (V c main_v60) r) q := by
  rw [array_eq]
  rfl

end Blocks

/-! ## The same row function, from the host's spelling of a log-softmax -/

section Host

/-- The host's shifted array: the array less, in each row, the maximum of `-∞` and the row's maximum folded from `-∞`. -/
def hostShifted (X : FVec Ideal ⟨2, ![100000, 64]⟩ .f32)
    (hred : (⟨2, ![100000, 64]⟩ : Shape).ReducesTo [1] ⟨1, ![100000]⟩) (h0 : 0 < (⟨0, ![]⟩ : Shape).numel)
    (hb : (⟨0, ![]⟩ : Shape).BroadcastsInDim ⟨1, ![100000]⟩ (![] : Fin 0 → Fin 1))
    (hc : (⟨1, ![100000]⟩ : Shape).BroadcastsInDim ⟨2, ![100000, 1]⟩ (![0] : Fin 1 → Fin 2))
    (hr : (⟨2, ![100000, 1]⟩ : Shape).BroadcastsInDim ⟨2, ![100000, 64]⟩ (![0, 1] : Fin 2 → Fin 2)) :
    FVec Ideal ⟨2, ![100000, 64]⟩ .f32 :=
  subf X (broadcastInDim ⟨2, ![100000, 64]⟩ ![0, 1] hr (broadcastInDim ⟨2, ![100000, 1]⟩ ![0] hc
    (maximumf (broadcastInDim ⟨1, ![100000]⟩ ![] hb (constant (F := Ideal) ⟨0, ![]⟩ .f32 0xFF800000#32))
      (Host.reduce FloatOps.maximumf X (constant (F := Ideal) ⟨0, ![]⟩ .f32 0xFF800000#32) hred h0))))

/-- The host's log-softmax: the shifted array less, in each row, the logarithm of zero plus the row's sum of exponentials. -/
def hostLogSoftmax (X : FVec Ideal ⟨2, ![100000, 64]⟩ .f32)
    (hred : (⟨2, ![100000, 64]⟩ : Shape).ReducesTo [1] ⟨1, ![100000]⟩) (h0 : 0 < (⟨0, ![]⟩ : Shape).numel)
    (hb : (⟨0, ![]⟩ : Shape).BroadcastsInDim ⟨1, ![100000]⟩ (![] : Fin 0 → Fin 1))
    (hc : (⟨1, ![100000]⟩ : Shape).BroadcastsInDim ⟨2, ![100000, 1]⟩ (![0] : Fin 1 → Fin 2))
    (hr : (⟨2, ![100000, 1]⟩ : Shape).BroadcastsInDim ⟨2, ![100000, 64]⟩ (![0, 1] : Fin 2 → Fin 2)) :
    FVec Ideal ⟨2, ![100000, 64]⟩ .f32 :=
  subf (hostShifted X hred h0 hb hc hr) (broadcastInDim ⟨2, ![100000, 64]⟩ ![0, 1] hr (Host.log
    (broadcastInDim ⟨2, ![100000, 1]⟩ ![0] hc (Host.reduceAdd (Host.exp (hostShifted X hred h0 hb hc hr))
      (constant (F := Ideal) ⟨0, ![]⟩ .f32 0x00000000#32) hred h0))))

/-- A column `[a, 1]` spread over `b` lanes reads, at `(p, c)`, the column at row `p`. -/
theorem broadcastInDim_a1_ab_apply {α : Type} {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` set as the column `[a, 1]` reads, at `(p, u)`, the vector at `p`. -/
theorem broadcastInDim_a_a1_apply {α : Type} {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A scalar spread over a vector reads the scalar everywhere. -/
theorem broadcastInDim_scalar_apply {α : Type} {a : ℕ} (v : (⟨0, ![]⟩ : Shape).Idx → α)
    (h : (⟨0, ![]⟩ : Shape).BroadcastsInDim ⟨1, ![a]⟩ (![] : Fin 0 → Fin 1)) (p : Fin a) :
    broadcastInDim ⟨1, ![a]⟩ ![] h v (ix1 p) = v ix0 :=
  broadcastInDim_apply _ h v (ix1 p) ix0 fun ax => ax.elim0

/-- The lane reduction of the whole array inserts lane `k` into row `r` at `(r, k)`. -/
theorem lift_row_full (h : (⟨2, ![100000, 64]⟩ : Shape).Reduces [1] ⟨1, ![100000]⟩) (r : Fin 100000) (k : Fin 64) :
    h.lift (ix1 r) k = ix2 r k :=
  funext fun a => Fin.ext (by match a with | ⟨0, _⟩ => rfl | ⟨1, _⟩ => rfl)

theorem reduces_full : (⟨2, ![100000, 64]⟩ : Shape).Reduces [1] ⟨1, ![100000]⟩ := by decide

/-- The host's shifted array at `(r, j)`: the entry less the row's maximum. -/
theorem hostShifted_apply (X : FVec Ideal ⟨2, ![100000, 64]⟩ .f32)
    (hred : (⟨2, ![100000, 64]⟩ : Shape).ReducesTo [1] ⟨1, ![100000]⟩) (h0 : 0 < (⟨0, ![]⟩ : Shape).numel)
    (hb : (⟨0, ![]⟩ : Shape).BroadcastsInDim ⟨1, ![100000]⟩ (![] : Fin 0 → Fin 1))
    (hc : (⟨1, ![100000]⟩ : Shape).BroadcastsInDim ⟨2, ![100000, 1]⟩ (![0] : Fin 1 → Fin 2))
    (hr : (⟨2, ![100000, 1]⟩ : Shape).BroadcastsInDim ⟨2, ![100000, 64]⟩ (![0, 1] : Fin 2 → Fin 2))
    (r : Fin 100000) (j : Fin 64) :
    hostShifted X hred h0 hb hc hr (ix2 r j) = X (ix2 r j) - rowMax (fun l => X (ix2 r l)) := by
  unfold hostShifted
  rw [subf_apply, broadcastInDim_a1_ab_apply, broadcastInDim_a_a1_apply, maximumf_apply, broadcastInDim_scalar_apply,
    constant_apply, ofBits_neg_inf, max_eq_right bot_le,
    Host.reduce_eq_fold_single FloatOps.maximumf X _ hred reduces_full h0 (ix1 r)]
  show X (ix2 r j) - (Finset.univ : Finset (Fin 64)).fold max (Ideal.ofBits .f32 0xFF800000#32) (fun k => X (reduces_full.lift (ix1 r) k)) = _
  rw [ofBits_neg_inf]
  unfold rowMax
  exact congrArg (fun f => X (ix2 r j) - (Finset.univ : Finset (Fin 64)).fold max ⊥ f)
    (funext fun k => congrArg X (lift_row_full reduces_full r k))

/-- The host's exponential, logarithm and sum of an array, read at an index. -/
theorem hostExp_apply {s : Shape} (x : FVec Ideal s .f32) (i : s.Idx) : Host.exp x i = Ideal.exp (x i) := rfl
theorem hostLog_apply {s : Shape} (x : FVec Ideal s .f32) (i : s.Idx) : Host.log x i = Ideal.log (x i) := rfl
theorem hostReduceAdd_apply {s t u : Shape} {axes : List (Fin s.rank)} (x : FVec Ideal s .f32) (init : u.Idx → Ideal .f32)
    (h : s.ReducesTo axes t) (hu : 0 < u.numel) (j : t.Idx) :
    Host.reduceAdd x init h hu j = Ideal.hostReduceAdd h x (init (Shape.Idx.first hu)) j := rfl

/-- THE HOST'S LOG-SOFTMAX AT `(r, q)` is the row function of row `r` at lane `q`. -/
theorem hostLogSoftmax_apply (X : FVec Ideal ⟨2, ![100000, 64]⟩ .f32)
    (hred : (⟨2, ![100000, 64]⟩ : Shape).ReducesTo [1] ⟨1, ![100000]⟩) (h0 : 0 < (⟨0, ![]⟩ : Shape).numel)
    (hb : (⟨0, ![]⟩ : Shape).BroadcastsInDim ⟨1, ![100000]⟩ (![] : Fin 0 → Fin 1))
    (hc : (⟨1, ![100000]⟩ : Shape).BroadcastsInDim ⟨2, ![100000, 1]⟩ (![0] : Fin 1 → Fin 2))
    (hr : (⟨2, ![100000, 1]⟩ : Shape).BroadcastsInDim ⟨2, ![100000, 64]⟩ (![0, 1] : Fin 2 → Fin 2))
    (r : Fin 100000) (q : Fin 64) :
    hostLogSoftmax X hred h0 hb hc hr (ix2 r q) = rowLogSoftmax (fun j => X (ix2 r j)) q := by
  unfold hostLogSoftmax
  rw [subf_apply, broadcastInDim_a1_ab_apply, hostShifted_apply, hostLog_apply, broadcastInDim_a_a1_apply,
    hostReduceAdd_apply, Ideal.hostReduceAdd_single hred reduces_full, constant_apply, Ideal.ofBits_zero_f32, zero_add]
  unfold rowLogSoftmax
  exact congrArg (fun s => X (ix2 r q) - rowMax (fun l => X (ix2 r l)) - Ideal.log s)
    (Finset.sum_congr rfl fun (k : Fin 64) _ => by
      rw [lift_row_full reduces_full r k, hostExp_apply, hostShifted_apply])

end Host

end Cert.KernelIdeal.LogSoftmaxBlocks

end
-- ==== Proof.HostSteps.lean ====
/-
  The host steps both programs share, as functions of the values they read.

  `wrapIndex`: node indices as jnp reads them, a negative index counted from the end (i < 0 ↦ i + 100000), as a column.
  `messages128` / `messages64`: one round of message passing at feature width 128 / 64 — gather the source node's row of
  the features for every edge, scale it by the edge's normalisation, and add the scaled rows into the destination
  nodes' rows of a zero array (a scatter-add: at the exact values the sum over the edges pointing at the node).
  `biasRelu`: add the bias to every row, then the maximum with zero. `biased64`: add the bias to every row.
  `shifted`, `normalised`, `logSoftmax`: subtract each row's maximum; subtract the logarithm of the row's sum of exponentials; one after the other.
-/
import proofs.«110104_j21534966022499_1_alg».proof.Proof.Gen.ReferenceIdeal

noncomputable section

namespace Cert.ReferenceIdeal.Steps

open Cert.ReferenceIdeal Cert.ReferenceIdeal.Gen Idealize.ShloMosaic Idealize.ShloMosaic.TcCoe Idealize.SL.Sem Idealize.ShloMosaic.StableHlo

variable {F : FTy → Type} [FloatOps F]

/-- A node index as jnp reads it (a negative one counted from the end), as a column of indices. -/
def wrapIndex (s : (⟨S1700000, .i32⟩ : BufTy).Contents (Elt F)) : (⟨S1700000x1, .i32⟩ : BufTy).Contents (Elt F) :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- One round of message passing at width 128: rows gathered at the edges' sources, scaled, summed at their destinations. -/
def messages128 (h : (⟨S100000x128, .f32⟩ : BufTy).Contents (Elt F)) (src dst : (⟨S1700000, .i32⟩ : BufTy).Contents (Elt F)) (nrm : (⟨S1700000, .f32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 dst)
    (mulf (Host.gather gather_S100000x128_S1700000x1_S1700000x128_1_0_n_n_0_1_1128 h (wrapIndex (F := F) src))
      (broadcastInDim S1700000x128 ![0, 1] bcast_S1700000x1_S1700000x128_0_1 (broadcastInDim S1700000x1 ![0] bcast_S1700000_S1700000x1_0 nrm)))

/-- One round of message passing at width 64. -/
def messages64 (h : (⟨S100000x64, .f32⟩ : BufTy).Contents (Elt F)) (src dst : (⟨S1700000, .i32⟩ : BufTy).Contents (Elt F)) (nrm : (⟨S1700000, .f32⟩ : BufTy).Contents (Elt F)) : (⟨S100000x64, .f32⟩ : BufTy).Contents (Elt F) :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 dst)
    (mulf (Host.gather gather_S100000x64_S1700000x1_S1700000x64_1_0_n_n_0_1_164 h (wrapIndex (F := F) src))
      (broadcastInDim S1700000x64 ![0, 1] bcast_S1700000x1_S1700000x64_0_1 (broadcastInDim S1700000x1 ![0] bcast_S1700000_S1700000x1_0 nrm)))

/-- The first layer's bias and relu, as the reference spells them. -/
def biasRelu (a : (⟨S100000x128, .f32⟩ : BufTy).Contents (Elt F)) (b : (⟨S128, .f32⟩ : BufTy).Contents (Elt F)) : (⟨S100000x128, .f32⟩ : BufTy).Contents (Elt F) :=
  maximumf (addf a (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- The second layer's bias, as the reference spells it. -/
def biased64 (a : (⟨S100000x64, .f32⟩ : BufTy).Contents (Elt F)) (b : (⟨S64, .f32⟩ : BufTy).Contents (Elt F)) : (⟨S100000x64, .f32⟩ : BufTy).Contents (Elt F) :=
  addf a (broadcastInDim S100000x64 ![0, 1] bcast_S1x64_S100000x64_0_1 (broadcastInDim S1x64 ![1] bcast_S64_S1x64_1 b))

/-- Every row less its maximum (the maximum taken from -∞, and once more against -∞, as jax.nn.log_softmax prints). -/
def shifted (z : (⟨S100000x64, .f32⟩ : BufTy).Contents (Elt F)) : (⟨S100000x64, .f32⟩ : BufTy).Contents (Elt F) :=
  subf z (broadcastInDim S100000x64 ![0, 1] bcast_S100000x1_S100000x64_0_1 (broadcastInDim S100000x1 ![0] bcast_S100000_S100000x1_0
    (maximumf (broadcastInDim S100000 ![] bcast_S_S100000 (constant S_ .f32 0xFF800000#32))
      (Host.reduce FloatOps.maximumf z (constant S_ .f32 0xFF800000#32) reducesTo_S100000x64_S100000_d1 h_S_))))

/-- A row less the logarithm of the sum of its exponentials. -/
def normalised (y : (⟨S100000x64, .f32⟩ : BufTy).Contents (Elt F)) : (⟨S100000x64, .f32⟩ : BufTy).Contents (Elt F) :=
  subf y (broadcastInDim S100000x64 ![0, 1] bcast_S100000x1_S100000x64_0_1
    (Host.log (broadcastInDim S100000x1 ![0] bcast_S100000_S100000x1_0
      (Host.reduceAdd (Host.exp y) (constant S_ .f32 0x00000000#32) reducesTo_S100000x64_S100000_d1 h_S_))))

/-- The row-wise log-softmax: the shifted row less the logarithm of its sum of exponentials. -/
def logSoftmax (z : (⟨S100000x64, .f32⟩ : BufTy).Contents (Elt F)) : (⟨S100000x64, .f32⟩ : BufTy).Contents (Elt F) :=
  normalised (F := F) (shifted (F := F) z)

end Cert.ReferenceIdeal.Steps

end
-- ==== Proof.BiasRow.lean ====
/-
  A vector of n entries as a matrix of one row: entry (0, j) is entry j. Both programs hand the bias to the row-wise
  steps in this form — the kernel's program by a reshape [n] → [1, n] before the region, the reference by a broadcast
  along a new leading axis.
-/
import Idealize.ShloMosaic.Lib.ValueIdx

noncomputable section

namespace Cert.Bridge

open Idealize.ShloMosaic Idealize.ShloMosaic.ValueIdx

/-- The one-row matrix whose row is the vector. -/
def asRow {n : ℕ} (b : (⟨1, ![n]⟩ : Shape).Idx → EReal) : (⟨2, ![1, n]⟩ : Shape).Idx → EReal :=
  fun i => b (ix1 (⟨(i 1).val, (i 1).isLt⟩ : Fin n))

theorem asRow_apply {n : ℕ} (b : (⟨1, ![n]⟩ : Shape).Idx → EReal) (j : Fin n) :
    asRow b (ix2 (0 : Fin 1) j) = b (ix1 j) := rfl

end Cert.Bridge

end
-- ==== Proof.BiasReluBridge.lean ====
/- The bias-and-relu layer: the kernel side's whole-array function against the reference's spelling, and the bias
   vector as a one-row matrix.

   Both programs compute, at entry `(r, j)`, the maximum of `A (r, j) + b j` and zero. The kernel's program hands the
   bias to the region as a `[1, n]` matrix made from the `[n]` vector by a reshape; since the new axis has extent one,
   entry `(0, j)` of the reshaped array is entry `j` of the vector (the two have the same row-major position). The
   reference broadcasts the vector first along a new leading axis and then down the rows, and broadcasts the scalar zero
   over the whole array; read at an entry, these give the same `b j` and the same zero. -/
import proofs.«110104_j21534966022499_1_alg».proof.Proof.BiasRow
import proofs.«110104_j21534966022499_1_alg».proof.Proof.BiasReluBlocks
import proofs.«110104_j21534966022499_1_alg».proof.Proof.HostSteps
import proofs.«110104_j21534966022499_1_alg».proof.Proof.RefReadPatched
import Idealize.ShloMosaic.Lib.Pipeline.Value

set_option maxRecDepth 16384

noncomputable section

namespace Cert.Bridge.BiasRelu

open Idealize.ShloMosaic Idealize.ShloMosaic.ValueIdx
open Cert.ReferenceIdeal.Gen Cert.KernelIdeal.Gen

/-- A vector reshaped to a matrix of one row is that row: entry `(0, j)` sits at row-major position `j`. -/
theorem shapeCast_eq_asRow {n : ℕ} (b : (⟨1, ![n]⟩ : Shape).Idx → EReal)
    (h : (⟨1, ![n]⟩ : Shape).ShapeCasts ⟨2, ![1, n]⟩) :
    shapeCast ⟨2, ![1, n]⟩ b h = Cert.Bridge.asRow b := by
  funext j
  have h0 : (j 0).val < 1 := (j 0).isLt
  have h00 : (j 0).val = 0 := by omega
  refine shapeCast_apply b h j (ix1 (⟨(j 1).val, (j 1).isLt⟩ : Fin n)) ?_
  rw [Shape.rowMajor_val_one, Shape.rowMajor_val_two, h00, Nat.zero_mul, Nat.zero_add]
  rfl

/-- The same through a transport along an equation between equal element formats, which changes nothing. -/
theorem cast_shapeCast_eq_asRow {n : ℕ} (he : EltTy.f32 = EltTy.f32) (b : (⟨1, ![n]⟩ : Shape).Idx → EReal)
    (h : (⟨1, ![n]⟩ : Shape).ShapeCasts ⟨2, ![1, n]⟩) :
    (fun i => (he ▸ (shapeCast ⟨2, ![1, n]⟩ b h i : Elt Ideal .f32) : Elt Ideal .f32)) = Cert.Bridge.asRow b :=
  shapeCast_eq_asRow b h

/-- The first layer's bias as the kernel's program reshapes it before the region: the one-row matrix of the vector. -/
theorem reshaped_bias128 (X : Cert.KernelIdeal.main_arg3.ty.Contents (Elt Ideal))
    (he : Cert.KernelIdeal.main_arg3.ty.elt = Cert.KernelIdeal.main_v44.ty.elt) :
    (fun i => (he ▸ shapeCast Cert.KernelIdeal.main_v44.ty.shape X Cert.KernelIdeal.Facts₀.shapeCasts_S128_S1x128 i :
        Elt Ideal Cert.KernelIdeal.main_v44.ty.elt)) = Cert.Bridge.asRow (n := 128) X :=
  shapeCast_eq_asRow (n := 128) X _

/-- The second layer's bias likewise. -/
theorem reshaped_bias64 (X : Cert.KernelIdeal.main_arg5.ty.Contents (Elt Ideal))
    (he : Cert.KernelIdeal.main_arg5.ty.elt = Cert.KernelIdeal.main_v60.ty.elt) :
    (fun i => (he ▸ shapeCast Cert.KernelIdeal.main_v60.ty.shape X Cert.KernelIdeal.Facts₀.shapeCasts_S64_S1x64 i :
        Elt Ideal Cert.KernelIdeal.main_v60.ty.elt)) = Cert.Bridge.asRow (n := 64) X :=
  shapeCast_eq_asRow (n := 64) X _

/-- The kernel side's bias-and-relu array, with the bias as a one-row matrix, is the reference's bias-and-relu of the
    same array and the bias vector: entry by entry the maximum of `A i + b (i 1)` and zero. -/
theorem biasRelu_eq (A : Cert.KernelIdeal.S100000x128.Idx → EReal) (b : Cert.KernelIdeal.S128.Idx → EReal) :
    Cert.KernelIdeal.BiasReluBlocks.biasRelu A (Cert.Bridge.asRow b)
      = Cert.ReferenceIdeal.Steps.biasRelu (F := Ideal) A b := by
  funext i
  show FloatOps.maximumf (F := Ideal) (φ := .f32)
      (FloatOps.addf (F := Ideal) (φ := .f32) (A i) (Cert.Bridge.asRow b (ix2 (0 : Fin 1) (⟨(i 1).val, (i 1).isLt⟩ : Fin 128))))
      (Scalar.ofBits (F := Ideal) .f32 0x00000000#32)
    = FloatOps.maximumf (F := Ideal) (φ := .f32)
      (FloatOps.addf (F := Ideal) (φ := .f32) (A i) (Cert.ReferenceIdeal.ReadP.val_main_v45 (F := Ideal) b i))
      (Cert.ReferenceIdeal.ReadP.val_main_call1_v0 (F := Ideal) i)
  rw [Cert.ReferenceIdeal.ReadP.val_main_v45_apply, Cert.ReferenceIdeal.ReadP.val_main_v44_apply,
    Cert.ReferenceIdeal.ReadP.val_main_call1_v0_apply, Cert.ReferenceIdeal.ReadP.val_main_call1_cst_apply]
  refine congrArg₂ (FloatOps.maximumf (F := Ideal) (φ := .f32)) (congrArg (FloatOps.addf (F := Ideal) (φ := .f32) (A i)) ?_) rfl
  refine congrArg b (funext fun a => ?_)
  match a with
  | ⟨0, _⟩ => rfl

end Cert.Bridge.BiasRelu

end
-- ==== Proof.KernelStages.lean ====
/-
  The idealized kernel read one boundary at a time. Between @main's launch and its return the buffer contents pass nine
  boundaries: three stretches of host operations (the edge data: sources, destinations, normalisation), the first
  product's region, a stretch (the first round of messages, and the bias as a row), the bias-and-relu region, the second
  product's region, a stretch (the second round of messages, and the bias as a row), the bias-and-log-softmax region.
  At each boundary: the buffer that segment is there to compute, as a function of the buffers it reads, and the buffers
  later segments read, unchanged. A region's output array is its whole-array function of the arrays it found (the three
  block modules); a host stretch's result is its operations' composition.
-/
import proofs.«110104_j21534966022499_1_alg».proof.Proof.KernelRun
import proofs.«110104_j21534966022499_1_alg».proof.Proof.BiasReluBlocks
import proofs.«110104_j21534966022499_1_alg».proof.Proof.LinearBlocks
import proofs.«110104_j21534966022499_1_alg».proof.Proof.LogSoftmaxBlocks
import proofs.«110104_j21534966022499_1_alg».proof.Proof.HostSteps
import proofs.«110104_j21534966022499_1_alg».proof.Proof.BiasReluBridge
import proofs.«110104_j21534966022499_1_alg».proof.Proof.RefReadPatched
import Idealize.ShloMosaic.Lib.StableHlo.Run

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo
open Idealize.ShloMosaic.Pipeline (Dat)
open Cert.ReferenceIdeal.Steps

/-- Finishes a read-back: each operation's result at its own buffer is its function's value, at any other buffer what
    was there (the rewriting loop, for the operations one simplification pass leaves). -/
macro "finish_results" : tactic =>
  `(tactic| repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)))

variable (m : (ℓ : Loc nD τ sig) → Buf (Elt Ideal) ℓ) (ρ : Dev nD → PrngReg)

/-! ## A called function's values sit in buffers of their own types: the transport of a value to its buffer and back is the identity -/
theorem toBuf_cst_2 (v : (⟨S_, .f32⟩ : BufTy).Contents (Elt Ideal)) : (TRef.of (T := ⟨S_, .f32⟩) main_cst_2).toBuf (Val := Elt Ideal) v = v := rfl
theorem ofBuf_cst_2 (v : (⟨S_, .f32⟩ : BufTy).Contents (Elt Ideal)) : (TRef.of (T := ⟨S_, .f32⟩) main_cst_2).ofBuf (Val := Elt Ideal) v = v := rfl
theorem toBuf_call0_v0 (v : (⟨S_, .f32⟩ : BufTy).Contents (Elt Ideal)) : (TRef.of (T := ⟨S_, .f32⟩) main_call0_v0).toBuf (Val := Elt Ideal) v = v := rfl
theorem ofBuf_call0_v0 (v : (⟨S_, .f32⟩ : BufTy).Contents (Elt Ideal)) : (TRef.of (T := ⟨S_, .f32⟩) main_call0_v0).ofBuf (Val := Elt Ideal) v = v := rfl
theorem toBuf_call0_v1 (v : (⟨S100000, .f32⟩ : BufTy).Contents (Elt Ideal)) : (TRef.of (T := ⟨S100000, .f32⟩) main_call0_v1).toBuf (Val := Elt Ideal) v = v := rfl
theorem ofBuf_call0_v1 (v : (⟨S100000, .f32⟩ : BufTy).Contents (Elt Ideal)) : (TRef.of (T := ⟨S100000, .f32⟩) main_call0_v1).ofBuf (Val := Elt Ideal) v = v := rfl
theorem toBuf_v12 (v : (⟨S100000, .i1⟩ : BufTy).Contents (Elt Ideal)) : (TRef.of (T := ⟨S100000, .i1⟩) main_v12).toBuf (Val := Elt Ideal) v = v := rfl
theorem ofBuf_v12 (v : (⟨S100000, .i1⟩ : BufTy).Contents (Elt Ideal)) : (TRef.of (T := ⟨S100000, .i1⟩) main_v12).ofBuf (Val := Elt Ideal) v = v := rfl
theorem toBuf_v13 (v : (⟨S100000, .f32⟩ : BufTy).Contents (Elt Ideal)) : (TRef.of (T := ⟨S100000, .f32⟩) main_v13).toBuf (Val := Elt Ideal) v = v := rfl
theorem ofBuf_v13 (v : (⟨S100000, .f32⟩ : BufTy).Contents (Elt Ideal)) : (TRef.of (T := ⟨S100000, .f32⟩) main_v13).ofBuf (Val := Elt Ideal) v = v := rfl
theorem toBuf_v14 (v : (⟨S100000, .f32⟩ : BufTy).Contents (Elt Ideal)) : (TRef.of (T := ⟨S100000, .f32⟩) main_v14).toBuf (Val := Elt Ideal) v = v := rfl
theorem ofBuf_v14 (v : (⟨S100000, .f32⟩ : BufTy).Contents (Elt Ideal)) : (TRef.of (T := ⟨S100000, .f32⟩) main_v14).ofBuf (Val := Elt Ideal) v = v := rfl

/-! ## The edge data, after the first three stretches -/
/-! ### The first stretch: sources, destinations, in-degrees — at any contents V before it -/
theorem k1_v3 (V : Valuation τ sig (Elt Ideal)) : after hostOps0 V (Proc.devRef .tc main_v3) = Cert.ReferenceIdeal.ReadP.val_main_v3 (F := Ideal) (V (Proc.devRef .tc main_arg1)) := by
  dsimp only [hostOps0]; after_results; rfl
theorem k1_v6 (V : Valuation τ sig (Elt Ideal)) : after hostOps0 V (Proc.devRef .tc main_v6) = Cert.ReferenceIdeal.ReadP.val_main_v6 (F := Ideal) (V (Proc.devRef .tc main_arg1)) := by
  dsimp only [hostOps0]; after_results; rfl
theorem k1_v12 (V : Valuation τ sig (Elt Ideal)) : after hostOps0 V (Proc.devRef .tc main_v12) = Cert.ReferenceIdeal.ReadP.val_main_v12 (F := Ideal) (V (Proc.devRef .tc main_arg1)) := by
  dsimp only [hostOps0]; after_results; rfl
theorem k1_v13 (V : Valuation τ sig (Elt Ideal)) : after hostOps0 V (Proc.devRef .tc main_v13) = Cert.ReferenceIdeal.ReadP.val_main_v13 (F := Ideal) (V (Proc.devRef .tc main_arg1)) := by
  dsimp only [hostOps0]; after_results; rfl
theorem k1_cst_2 (V : Valuation τ sig (Elt Ideal)) : after hostOps0 V (Proc.devRef .tc main_cst_2) = Cert.ReferenceIdeal.ReadP.val_main_cst_2 (F := Ideal) := by
  dsimp only [hostOps0]; after_results; rfl

/-! ### The second stretch: the reciprocal square root of the degree where the degree is positive, zero elsewhere -/
theorem k2_v14 (V : Valuation τ sig (Elt Ideal)) : after hostOps0_1 V (Proc.devRef .tc main_v14)
    = select (V (Proc.devRef .tc main_v12)) (V (Proc.devRef .tc main_v13)) (broadcastInDim S100000 ![] bcast_S_S100000 (id (V (Proc.devRef .tc main_cst_2)))) := by
  dsimp only [hostOps0_1]; after_results
  simp only [toBuf_cst_2, ofBuf_cst_2, toBuf_call0_v0, ofBuf_call0_v0, toBuf_call0_v1, ofBuf_call0_v1, toBuf_v12, ofBuf_v12, toBuf_v13, ofBuf_v13, toBuf_v14, ofBuf_v14]
theorem k2_v3 (V : Valuation τ sig (Elt Ideal)) : after hostOps0_1 V (Proc.devRef .tc main_v3) = (V (Proc.devRef .tc main_v3)) := by
  dsimp only [hostOps0_1]; after_results
theorem k2_v6 (V : Valuation τ sig (Elt Ideal)) : after hostOps0_1 V (Proc.devRef .tc main_v6) = (V (Proc.devRef .tc main_v6)) := by
  dsimp only [hostOps0_1]; after_results

/-! ### The third stretch: the normalisation of every edge, the product of the two endpoints' factors -/
/-- The normalisation of the edges from the nodes' factors and the two endpoint lists. -/
def edgeNorm (a : FVec Ideal Cert.ReferenceIdeal.S100000 .f32) (s d : (⟨Cert.ReferenceIdeal.S1700000, .i32⟩ : BufTy).Contents (Elt Ideal)) :
    FVec Ideal Cert.ReferenceIdeal.S1700000 .f32 :=
  mulf (F := Ideal) (φ := .f32)
    (Host.gather Cert.ReferenceIdeal.gather_S100000_S1700000x1_S1700000_n_0_n_n_0_1_1 a (wrapIndex (F := Ideal) s))
    (Host.gather Cert.ReferenceIdeal.gather_S100000_S1700000x1_S1700000_n_0_n_n_0_1_1 a (wrapIndex (F := Ideal) d))
set_option maxHeartbeats 4000000 in
theorem k3_v29 (V : Valuation τ sig (Elt Ideal)) : after hostOps0_2 V (Proc.devRef .tc main_v29) = edgeNorm (V (Proc.devRef .tc main_v14)) (V (Proc.devRef .tc main_v3)) (V (Proc.devRef .tc main_v6)) := by
  dsimp only [hostOps0_2]; after_results; rfl
theorem k3_v3 (V : Valuation τ sig (Elt Ideal)) : after hostOps0_2 V (Proc.devRef .tc main_v3) = (V (Proc.devRef .tc main_v3)) := by
  dsimp only [hostOps0_2]; after_results
theorem k3_v6 (V : Valuation τ sig (Elt Ideal)) : after hostOps0_2 V (Proc.devRef .tc main_v6) = (V (Proc.devRef .tc main_v6)) := by
  dsimp only [hostOps0_2]; after_results

/-! ### The three stretches from the launch -/
theorem w1_v3 (c : Dev nD) : W1 m ρ c (Proc.devRef .tc main_v3) = Cert.ReferenceIdeal.ReadP.val_main_v3 (F := Ideal) (m ((c.tc : Thread nD τ).loc main_arg1)) := k1_v3 (W0 m ρ c)
theorem w1_v6 (c : Dev nD) : W1 m ρ c (Proc.devRef .tc main_v6) = Cert.ReferenceIdeal.ReadP.val_main_v6 (F := Ideal) (m ((c.tc : Thread nD τ).loc main_arg1)) := k1_v6 (W0 m ρ c)
theorem w1_v12 (c : Dev nD) : W1 m ρ c (Proc.devRef .tc main_v12) = Cert.ReferenceIdeal.ReadP.val_main_v12 (F := Ideal) (m ((c.tc : Thread nD τ).loc main_arg1)) := k1_v12 (W0 m ρ c)
theorem w1_v13 (c : Dev nD) : W1 m ρ c (Proc.devRef .tc main_v13) = Cert.ReferenceIdeal.ReadP.val_main_v13 (F := Ideal) (m ((c.tc : Thread nD τ).loc main_arg1)) := k1_v13 (W0 m ρ c)
theorem w1_cst_2 (c : Dev nD) : W1 m ρ c (Proc.devRef .tc main_cst_2) = Cert.ReferenceIdeal.ReadP.val_main_cst_2 (F := Ideal) := k1_cst_2 (W0 m ρ c)
theorem w2_v14 (c : Dev nD) : W2 m ρ c (Proc.devRef .tc main_v14) = Cert.ReferenceIdeal.ReadP.val_main_v14 (F := Ideal) (m ((c.tc : Thread nD τ).loc main_arg1)) := by
  have h := k2_v14 (W1 m ρ c)
  have e12 := w1_v12 m ρ c
  have e13 := w1_v13 m ρ c
  have ec := w1_cst_2 m ρ c
  generalize W1 m ρ c (Proc.devRef .tc main_v12) = a12 at h e12
  generalize W1 m ρ c (Proc.devRef .tc main_v13) = a13 at h e13
  generalize W1 m ρ c (Proc.devRef .tc main_cst_2) = ac at h ec
  subst e12 e13 ec
  exact h
theorem w2_v3 (c : Dev nD) : W2 m ρ c (Proc.devRef .tc main_v3) = Cert.ReferenceIdeal.ReadP.val_main_v3 (F := Ideal) (m ((c.tc : Thread nD τ).loc main_arg1)) := (k2_v3 (W1 m ρ c)).trans (w1_v3 m ρ c)
theorem w2_v6 (c : Dev nD) : W2 m ρ c (Proc.devRef .tc main_v6) = Cert.ReferenceIdeal.ReadP.val_main_v6 (F := Ideal) (m ((c.tc : Thread nD τ).loc main_arg1)) := (k2_v6 (W1 m ρ c)).trans (w1_v6 m ρ c)
theorem nrm_eq (c : Dev nD) : W3 m ρ c (Proc.devRef .tc main_v29) = Cert.ReferenceIdeal.ReadP.val_main_v29 (F := Ideal) (m ((c.tc : Thread nD τ).loc main_arg1)) := by
  have h := k3_v29 (W2 m ρ c)
  have e14 := w2_v14 m ρ c
  have e3 := w2_v3 m ρ c
  have e6 := w2_v6 m ρ c
  generalize W2 m ρ c (Proc.devRef .tc main_v14) = a14 at h e14
  generalize W2 m ρ c (Proc.devRef .tc main_v3) = a3 at h e3
  generalize W2 m ρ c (Proc.devRef .tc main_v6) = a6 at h e6
  subst e14 e3 e6
  exact h
theorem src_eq (c : Dev nD) : W3 m ρ c (Proc.devRef .tc main_v3) = Cert.ReferenceIdeal.ReadP.val_main_v3 (F := Ideal) (m ((c.tc : Thread nD τ).loc main_arg1)) := (k3_v3 (W2 m ρ c)).trans (w2_v3 m ρ c)
theorem dst_eq (c : Dev nD) : W3 m ρ c (Proc.devRef .tc main_v6) = Cert.ReferenceIdeal.ReadP.val_main_v6 (F := Ideal) (m ((c.tc : Thread nD τ).loc main_arg1)) := (k3_v6 (W2 m ρ c)).trans (w2_v6 m ρ c)
theorem arg0_3 (c : Dev nD) : W3 m ρ c (Proc.devRef .tc main_arg0) = m ((c.tc : Thread nD τ).loc main_arg0) := by
  dsimp only [W3, W2, W1, hostOps0, hostOps0_1, hostOps0_2]; after_results <;> rfl
theorem arg2_3 (c : Dev nD) : W3 m ρ c (Proc.devRef .tc main_arg2) = m ((c.tc : Thread nD τ).loc main_arg2) := by
  dsimp only [W3, W2, W1, hostOps0, hostOps0_1, hostOps0_2]; after_results <;> rfl
theorem arg3_3 (c : Dev nD) : W3 m ρ c (Proc.devRef .tc main_arg3) = m ((c.tc : Thread nD τ).loc main_arg3) := by
  dsimp only [W3, W2, W1, hostOps0, hostOps0_1, hostOps0_2]; after_results <;> rfl
theorem arg4_3 (c : Dev nD) : W3 m ρ c (Proc.devRef .tc main_arg4) = m ((c.tc : Thread nD τ).loc main_arg4) := by
  dsimp only [W3, W2, W1, hostOps0, hostOps0_1, hostOps0_2]; after_results <;> rfl
theorem arg5_3 (c : Dev nD) : W3 m ρ c (Proc.devRef .tc main_arg5) = m ((c.tc : Thread nD τ).loc main_arg5) := by
  dsimp only [W3, W2, W1, hostOps0, hostOps0_1, hostOps0_2]; after_results <;> rfl

/-! ## The first product (region 0) -/
theorem prod1_eq (c : Dev nD) : W4 m ρ c (Proc.devRef .tc main_v30) = LinearBlocks.rowsTimes0 (W3 m ρ c (Proc.devRef .tc main_arg0)) (W3 m ρ c (Proc.devRef .tc main_arg2)) :=
  (W4_arr m ρ c 2).trans (LinearBlocks.rows_times_W1_array (V3 m ρ) c)
theorem keep4_v3 (c : Dev nD) : W4 m ρ c (Proc.devRef .tc main_v3) = W3 m ρ c (Proc.devRef .tc main_v3) := W4_of_ne m ρ c main_v3 (by decide)
theorem keep4_v6 (c : Dev nD) : W4 m ρ c (Proc.devRef .tc main_v6) = W3 m ρ c (Proc.devRef .tc main_v6) := W4_of_ne m ρ c main_v6 (by decide)
theorem keep4_v29 (c : Dev nD) : W4 m ρ c (Proc.devRef .tc main_v29) = W3 m ρ c (Proc.devRef .tc main_v29) := W4_of_ne m ρ c main_v29 (by decide)
theorem keep4_arg3 (c : Dev nD) : W4 m ρ c (Proc.devRef .tc main_arg3) = W3 m ρ c (Proc.devRef .tc main_arg3) := W4_of_ne m ρ c main_arg3 (by decide)
theorem keep4_arg4 (c : Dev nD) : W4 m ρ c (Proc.devRef .tc main_arg4) = W3 m ρ c (Proc.devRef .tc main_arg4) := W4_of_ne m ρ c main_arg4 (by decide)
theorem keep4_arg5 (c : Dev nD) : W4 m ρ c (Proc.devRef .tc main_arg5) = W3 m ρ c (Proc.devRef .tc main_arg5) := W4_of_ne m ρ c main_arg5 (by decide)

/-! ## The first round of messages, and the bias as a row -/
set_option maxHeartbeats 4000000 in
theorem msg1_eq (c : Dev nD) : W5 m ρ c (Proc.devRef .tc main_v43)
    = messages128 (F := Ideal) (W4 m ρ c (Proc.devRef .tc main_v30)) (W4 m ρ c (Proc.devRef .tc main_v3)) (W4 m ρ c (Proc.devRef .tc main_v6)) (W4 m ρ c (Proc.devRef .tc main_v29)) := by
  dsimp only [W5, hostOps1]; after_results_simp; rfl
theorem bias1_eq (c : Dev nD) : W5 m ρ c (Proc.devRef .tc main_v44) = Cert.Bridge.asRow (n := 128) (W4 m ρ c (Proc.devRef .tc main_arg3)) := by
  dsimp only [W5, hostOps1]; after_results
  exact Cert.Bridge.BiasRelu.reshaped_bias128 _ rfl
theorem keep5_v3 (c : Dev nD) : W5 m ρ c (Proc.devRef .tc main_v3) = W4 m ρ c (Proc.devRef .tc main_v3) := by
  dsimp only [W5, hostOps1]; after_results
theorem keep5_v6 (c : Dev nD) : W5 m ρ c (Proc.devRef .tc main_v6) = W4 m ρ c (Proc.devRef .tc main_v6) := by
  dsimp only [W5, hostOps1]; after_results
theorem keep5_v29 (c : Dev nD) : W5 m ρ c (Proc.devRef .tc main_v29) = W4 m ρ c (Proc.devRef .tc main_v29) := by
  dsimp only [W5, hostOps1]; after_results
theorem keep5_arg4 (c : Dev nD) : W5 m ρ c (Proc.devRef .tc main_arg4) = W4 m ρ c (Proc.devRef .tc main_arg4) := by
  dsimp only [W5, hostOps1]; after_results
theorem keep5_arg5 (c : Dev nD) : W5 m ρ c (Proc.devRef .tc main_arg5) = W4 m ρ c (Proc.devRef .tc main_arg5) := by
  dsimp only [W5, hostOps1]; after_results

/-! ## Bias and relu (region 1) -/
theorem relu_eq (c : Dev nD) : W6 m ρ c (Proc.devRef .tc main_v45) = BiasReluBlocks.biasRelu (W5 m ρ c (Proc.devRef .tc main_v43)) (W5 m ρ c (Proc.devRef .tc main_v44)) :=
  (W6_arr m ρ c 2).trans (BiasReluBlocks.array_eq (V5 m ρ) c)
theorem keep6_v3 (c : Dev nD) : W6 m ρ c (Proc.devRef .tc main_v3) = W5 m ρ c (Proc.devRef .tc main_v3) := W6_of_ne m ρ c main_v3 (by decide)
theorem keep6_v6 (c : Dev nD) : W6 m ρ c (Proc.devRef .tc main_v6) = W5 m ρ c (Proc.devRef .tc main_v6) := W6_of_ne m ρ c main_v6 (by decide)
theorem keep6_v29 (c : Dev nD) : W6 m ρ c (Proc.devRef .tc main_v29) = W5 m ρ c (Proc.devRef .tc main_v29) := W6_of_ne m ρ c main_v29 (by decide)
theorem keep6_arg4 (c : Dev nD) : W6 m ρ c (Proc.devRef .tc main_arg4) = W5 m ρ c (Proc.devRef .tc main_arg4) := W6_of_ne m ρ c main_arg4 (by decide)
theorem keep6_arg5 (c : Dev nD) : W6 m ρ c (Proc.devRef .tc main_arg5) = W5 m ρ c (Proc.devRef .tc main_arg5) := W6_of_ne m ρ c main_arg5 (by decide)

/-! ## The second product (region 2) -/
theorem prod2_eq (c : Dev nD) : W7 m ρ c (Proc.devRef .tc main_v46) = LinearBlocks.rowsTimes2 (W6 m ρ c (Proc.devRef .tc main_v45)) (W6 m ρ c (Proc.devRef .tc main_arg4)) :=
  (W7_arr m ρ c 2).trans (LinearBlocks.rows_times_W2_array (V6 m ρ) c)
theorem keep7_v3 (c : Dev nD) : W7 m ρ c (Proc.devRef .tc main_v3) = W6 m ρ c (Proc.devRef .tc main_v3) := W7_of_ne m ρ c main_v3 (by decide)
theorem keep7_v6 (c : Dev nD) : W7 m ρ c (Proc.devRef .tc main_v6) = W6 m ρ c (Proc.devRef .tc main_v6) := W7_of_ne m ρ c main_v6 (by decide)
theorem keep7_v29 (c : Dev nD) : W7 m ρ c (Proc.devRef .tc main_v29) = W6 m ρ c (Proc.devRef .tc main_v29) := W7_of_ne m ρ c main_v29 (by decide)
theorem keep7_arg5 (c : Dev nD) : W7 m ρ c (Proc.devRef .tc main_arg5) = W6 m ρ c (Proc.devRef .tc main_arg5) := W7_of_ne m ρ c main_arg5 (by decide)

/-! ## The second round of messages, and the bias as a row -/
set_option maxHeartbeats 4000000 in
theorem msg2_eq (c : Dev nD) : W8 m ρ c (Proc.devRef .tc main_v59)
    = messages64 (F := Ideal) (W7 m ρ c (Proc.devRef .tc main_v46)) (W7 m ρ c (Proc.devRef .tc main_v3)) (W7 m ρ c (Proc.devRef .tc main_v6)) (W7 m ρ c (Proc.devRef .tc main_v29)) := by
  dsimp only [W8, hostOps3]; after_results_simp; rfl

theorem bias2_eq (c : Dev nD) : W8 m ρ c (Proc.devRef .tc main_v60) = Cert.Bridge.asRow (n := 64) (W7 m ρ c (Proc.devRef .tc main_arg5)) := by
  dsimp only [W8, hostOps3]; after_results
  exact Cert.Bridge.BiasRelu.reshaped_bias64 _ rfl

/-! ## Bias and log-softmax (region 3) -/
theorem lsm_eq (c : Dev nD) : W9 m ρ c (Proc.devRef .tc main_v61) = LogSoftmaxBlocks.G (W8 m ρ c (Proc.devRef .tc main_v59)) (W8 m ρ c (Proc.devRef .tc main_v60)) :=
  (W9_arr m ρ c 2).trans (LogSoftmaxBlocks.array_eq (V8 m ρ) c)

/-! ## The whole of @main -/

/-- The returned buffer as one composition over the launch contents: the log-softmax of the second round of messages
    (of the second product of the relu of the first round of messages (of the first product)), the edge data computed
    once from the edge list. -/
theorem result_eq (c : Dev nD) : W9 m ρ c (Proc.devRef .tc main_v61)
    = LogSoftmaxBlocks.G
      (messages64 (F := Ideal)
        (LinearBlocks.rowsTimes2
          (BiasReluBlocks.biasRelu
            (messages128 (F := Ideal) (LinearBlocks.rowsTimes0 (m ((c.tc : Thread nD τ).loc main_arg0)) (m ((c.tc : Thread nD τ).loc main_arg2))) (Cert.ReferenceIdeal.ReadP.val_main_v3 (F := Ideal) (m ((c.tc : Thread nD τ).loc main_arg1))) (Cert.ReferenceIdeal.ReadP.val_main_v6 (F := Ideal) (m ((c.tc : Thread nD τ).loc main_arg1))) (Cert.ReferenceIdeal.ReadP.val_main_v29 (F := Ideal) (m ((c.tc : Thread nD τ).loc main_arg1))))
            (Cert.Bridge.asRow (n := 128) (m ((c.tc : Thread nD τ).loc main_arg3))))
          (m ((c.tc : Thread nD τ).loc main_arg4)))
        (Cert.ReferenceIdeal.ReadP.val_main_v3 (F := Ideal) (m ((c.tc : Thread nD τ).loc main_arg1))) (Cert.ReferenceIdeal.ReadP.val_main_v6 (F := Ideal) (m ((c.tc : Thread nD τ).loc main_arg1))) (Cert.ReferenceIdeal.ReadP.val_main_v29 (F := Ideal) (m ((c.tc : Thread nD τ).loc main_arg1))))
      (Cert.Bridge.asRow (n := 64) (m ((c.tc : Thread nD τ).loc main_arg5))) := by
  -- after the first product
  have h4p : W4 m ρ c (Proc.devRef .tc main_v30) = LinearBlocks.rowsTimes0 (m ((c.tc : Thread nD τ).loc main_arg0)) (m ((c.tc : Thread nD τ).loc main_arg2)) :=
    (prod1_eq m ρ c).trans (congrArg₂ LinearBlocks.rowsTimes0 (arg0_3 m ρ c) (arg2_3 m ρ c))
  have h4s := (keep4_v3 m ρ c).trans (src_eq m ρ c)
  have h4d := (keep4_v6 m ρ c).trans (dst_eq m ρ c)
  have h4n := (keep4_v29 m ρ c).trans (nrm_eq m ρ c)
  have h4a3 := (keep4_arg3 m ρ c).trans (arg3_3 m ρ c)
  have h4a4 := (keep4_arg4 m ρ c).trans (arg4_3 m ρ c)
  have h4a5 := (keep4_arg5 m ρ c).trans (arg5_3 m ρ c)
  -- after the first round of messages
  have h5m : W5 m ρ c (Proc.devRef .tc main_v43) = messages128 (F := Ideal) (LinearBlocks.rowsTimes0 (m ((c.tc : Thread nD τ).loc main_arg0)) (m ((c.tc : Thread nD τ).loc main_arg2))) (Cert.ReferenceIdeal.ReadP.val_main_v3 (F := Ideal) (m ((c.tc : Thread nD τ).loc main_arg1))) (Cert.ReferenceIdeal.ReadP.val_main_v6 (F := Ideal) (m ((c.tc : Thread nD τ).loc main_arg1))) (Cert.ReferenceIdeal.ReadP.val_main_v29 (F := Ideal) (m ((c.tc : Thread nD τ).loc main_arg1))) :=
    (msg1_eq m ρ c).trans (by rw [h4p, h4s, h4d, h4n])
  have h5b : W5 m ρ c (Proc.devRef .tc main_v44) = Cert.Bridge.asRow (n := 128) (m ((c.tc : Thread nD τ).loc main_arg3)) := (bias1_eq m ρ c).trans (congrArg (Cert.Bridge.asRow (n := 128)) h4a3)
  have h5s := (keep5_v3 m ρ c).trans h4s
  have h5d := (keep5_v6 m ρ c).trans h4d
  have h5n := (keep5_v29 m ρ c).trans h4n
  have h5a4 := (keep5_arg4 m ρ c).trans h4a4
  have h5a5 := (keep5_arg5 m ρ c).trans h4a5
  -- after bias and relu
  have h6r := (relu_eq m ρ c).trans (congrArg₂ BiasReluBlocks.biasRelu h5m h5b)
  have h6s := (keep6_v3 m ρ c).trans h5s
  have h6d := (keep6_v6 m ρ c).trans h5d
  have h6n := (keep6_v29 m ρ c).trans h5n
  have h6a4 := (keep6_arg4 m ρ c).trans h5a4
  have h6a5 := (keep6_arg5 m ρ c).trans h5a5
  -- after the second product
  have h7p := (prod2_eq m ρ c).trans (congrArg₂ LinearBlocks.rowsTimes2 h6r h6a4)
  have h7s := (keep7_v3 m ρ c).trans h6s
  have h7d := (keep7_v6 m ρ c).trans h6d
  have h7n := (keep7_v29 m ρ c).trans h6n
  have h7a5 := (keep7_arg5 m ρ c).trans h6a5
  -- after the second round of messages
  have h8m := (msg2_eq m ρ c).trans (by rw [h7p, h7s, h7d, h7n])
  have h8b := (bias2_eq m ρ c).trans (congrArg (Cert.Bridge.asRow (n := 64)) h7a5)
  exact (lsm_eq m ρ c).trans (congrArg₂ LogSoftmaxBlocks.G h8m h8b)

end Cert.KernelIdeal.Stages

end
-- ==== Proof.RefRun.lean ====
/-
  The reference's run, with its result left as a fold. The reference is a straight line of 98 host operations; every
  weakly fair execution terminates with each buffer at the fold of the operations' results over the launch contents.
  The line is cut into seven consecutive pieces — everything up to the edge normalisation; the first matrix product;
  the first gather, scale and scatter-add; bias and relu; the second matrix product; the second gather, scale and
  scatter-add; bias and log-softmax — and a fold over a concatenation is the fold over the second piece of the fold over
  the first, so the result can be read one piece at a time.
-/
import proofs.«110104_j21534966022499_1_alg».proof.Proof.RefRunPatched
import Idealize.ShloMosaic.Lib.StableHlo.Run

noncomputable section

namespace Idealize.ShloMosaic.StableHlo

variable {nD : Nat} {τ : Topo} {sig : RefSig} {Val : EltTy → Type}

/-- The contents after two lines run one after the other: the second line's fold over the first's. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Idealize.ShloMosaic.StableHlo

namespace Cert.ReferenceIdeal.Folded

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- Operations 1 … 40 of @main. -/
abbrev cA : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)) ]

/-- Operations 41 … 41 of @main. -/
abbrev cB : List (HloOp τ sig (Elt F)) :=
  [ binary main_arg0 main_arg2 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- Operations 42 … 57 of @main. -/
abbrev cC : List (HloOp τ sig (Elt F)) :=
  [ nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- Operations 58 … 63 of @main. -/
abbrev cD : List (HloOp τ sig (Elt F)) :=
  [ unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf ]

/-- Operations 64 … 64 of @main. -/
abbrev cE : List (HloOp τ sig (Elt F)) :=
  [ binary main_v47 main_arg4 main_v48 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) ]

/-- Operations 65 … 80 of @main. -/
abbrev cF : List (HloOp τ sig (Elt F)) :=
  [ nullary main_c_9 (constantI S_ 32 0#32),
    unary main_c_9 main_v49 (broadcastInDim S1700000 ![] bcast_S_S1700000 : (⟨S_, .i32⟩ : BufTy).Contents (Elt F) → (⟨S1700000, .i32⟩ : BufTy).Contents (Elt F)),
    binary main_v3 main_v49 main_v50 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (addi : (⟨S1700000, .i32⟩ : BufTy).Contents (Elt F) → (⟨S1700000, .i32⟩ : BufTy).Contents (Elt F) → (⟨S1700000, .i32⟩ : BufTy).Contents (Elt F)),
    ternary main_v50 main_v52 main_v3 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v53 main_v54 (broadcastInDim S1700000x1 ![0] bcast_S1700000_S1700000x1_0 : (⟨S1700000, .i32⟩ : BufTy).Contents (Elt F) → (⟨S1700000x1, .i32⟩ : BufTy).Contents (Elt F)),
    binary main_v48 main_v54 main_v55 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v29 main_v56 (broadcastInDim S1700000x1 ![0] bcast_S1700000_S1700000x1_0 : (⟨S1700000, .f32⟩ : BufTy).Contents (Elt F) → (⟨S1700000x1, .f32⟩ : BufTy).Contents (Elt F)),
    unary main_v56 main_v57 (broadcastInDim S1700000x64 ![0, 1] bcast_S1700000x1_S1700000x64_0_1 : (⟨S1700000x1, .f32⟩ : BufTy).Contents (Elt F) → (⟨S1700000x64, .f32⟩ : BufTy).Contents (Elt F)),
    binary main_v55 main_v57 main_v58 (mulf : (⟨S1700000x64, .f32⟩ : BufTy).Contents (Elt F) → (⟨S1700000x64, .f32⟩ : BufTy).Contents (Elt F) → (⟨S1700000x64, .f32⟩ : BufTy).Contents (Elt F)),
    nullary main_cst_11 (constant S_ .f32 0x00000000#32),
    unary main_cst_11 main_v59 (broadcastInDim S100000x64 ![] bcast_S_S100000x64 : (⟨S_, .f32⟩ : BufTy).Contents (Elt F) → (⟨S100000x64, .f32⟩ : BufTy).Contents (Elt F)),
    unary main_v6 main_v60 (broadcastInDim S1700000x1 ![0] bcast_S1700000_S1700000x1_0 : (⟨S1700000, .i32⟩ : BufTy).Contents (Elt F) → (⟨S1700000x1, .i32⟩ : BufTy).Contents (Elt F)),
    ternary main_v59 main_v60 main_v58 main_v61 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- Operations 81 … 98 of @main. -/
abbrev cG : List (HloOp τ sig (Elt F)) :=
  [ unary main_arg5 main_v62 (broadcastInDim S1x64 ![1] bcast_S64_S1x64_1 : (⟨S64, .f32⟩ : BufTy).Contents (Elt F) → (⟨S1x64, .f32⟩ : BufTy).Contents (Elt F)),
    unary main_v62 main_v63 (broadcastInDim S100000x64 ![0, 1] bcast_S1x64_S100000x64_0_1 : (⟨S1x64, .f32⟩ : BufTy).Contents (Elt F) → (⟨S100000x64, .f32⟩ : BufTy).Contents (Elt F)),
    binary main_v61 main_v63 main_v64 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0xFF800000#32),
    TRef.binary (TRef.of (T := ⟨S100000x64, .f32⟩) main_v64) (TRef.of (T := ⟨S_, .f32⟩) main_call2_cst) (TRef.of (T := ⟨S100000, .f32⟩) main_call2_v0) (fun x v => Host.reduce FloatOps.maximumf x v reducesTo_S100000x64_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x64, .f32⟩) main_call2_v4) (broadcastInDim S100000x64 ![0, 1] bcast_S100000x1_S100000x64_0_1),
    TRef.binary (TRef.of (T := ⟨S100000x64, .f32⟩) main_v64) (TRef.of (T := ⟨S100000x64, .f32⟩) main_call2_v4) (TRef.of (T := ⟨S100000x64, .f32⟩) main_call2_v5) subf,
    TRef.unary (TRef.of (T := ⟨S100000x64, .f32⟩) main_call2_v5) (TRef.of (T := ⟨S100000x64, .f32⟩) main_call2_v6) Host.exp,
    TRef.nullary (TRef.of (T := ⟨S_, .f32⟩) main_call2_cst_1) (constant S_ .f32 0x00000000#32),
    TRef.binary (TRef.of (T := ⟨S100000x64, .f32⟩) main_call2_v6) (TRef.of (T := ⟨S_, .f32⟩) main_call2_cst_1) (TRef.of (T := ⟨S100000, .f32⟩) main_call2_v7) (fun x v => Host.reduceAdd x v reducesTo_S100000x64_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x64, .f32⟩) main_call2_v10) (broadcastInDim S100000x64 ![0, 1] bcast_S100000x1_S100000x64_0_1),
    TRef.binary (TRef.of (T := ⟨S100000x64, .f32⟩) main_call2_v5) (TRef.of (T := ⟨S100000x64, .f32⟩) main_call2_v10) (TRef.of (T := ⟨S100000x64, .f32⟩) main_v65) subf ]

set_option maxRecDepth 8192 in
/-- The seven pieces, in order, are the whole line. -/
theorem ops_cut : (ops : List (HloOp τ sig (Elt F))) = cA ++ (cB ++ (cC ++ (cD ++ (cE ++ (cF ++ cG))))) := rfl

/-- The contents after the whole line, piece by piece. -/
theorem after_ops (V : Valuation τ sig (Elt F)) :
    after ops V = after cG (after cF (after cE (after cD (after cC (after cB (after cA V)))))) := by
  rw [ops_cut, after_append, after_append, after_append, after_append, after_append, after_append]

set_option maxRecDepth 8192 in
set_option maxHeartbeats 4000000 in
/-- Every weakly fair execution of the reference terminates with the returned buffer at the fold of its operations over
    the launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v65) = after ops (launchContents m c) (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨h c main_v65,
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.Folded

end
-- ==== Proof.RefStages.lean ====
/-
  The reference read one piece at a time. For contents V before a piece, what the piece leaves in the buffer it is
  there to compute, as a function of the buffers of V it reads, and that it leaves the buffers later pieces read as they
  were. Composed over the seven pieces: the returned buffer is the log-softmax of the second round of messages (of the
  second product of the relu of the first round of messages (of the first product)), the edge data — sources,
  destinations, normalisation — computed once from the edge list.
-/
import proofs.«110104_j21534966022499_1_alg».proof.Proof.RefRun
import proofs.«110104_j21534966022499_1_alg».proof.Proof.RefReadPatched
import proofs.«110104_j21534966022499_1_alg».proof.Proof.HostSteps

set_option maxRecDepth 16384

noncomputable section

namespace Cert.ReferenceIdeal.Stages

open Cert.ReferenceIdeal Cert.ReferenceIdeal.Gen Cert.ReferenceIdeal.ValueP Cert.ReferenceIdeal.Folded Cert.ReferenceIdeal.Steps
open Idealize.ShloMosaic Idealize.ShloMosaic.TcCoe Idealize.SL.Sem Idealize.ShloMosaic.StableHlo

variable {F : FTy → Type} [FloatOps F]

/-- Finishes a read-back: each operation's result at its own buffer is its function's value, at any other buffer what
    was there (the rewriting loop, for the operations one simplification pass leaves). -/
macro "finish_results" : tactic =>
  `(tactic| repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)))

/-! ## A called function's values sit in buffers of their own types: the transport of a value to its buffer and back is the identity -/
theorem toBuf_cst_2 (v : (⟨S_, .f32⟩ : BufTy).Contents (Elt F)) : (TRef.of (T := ⟨S_, .f32⟩) main_cst_2).toBuf (Val := Elt F) v = v := rfl
theorem ofBuf_cst_2 (v : (⟨S_, .f32⟩ : BufTy).Contents (Elt F)) : (TRef.of (T := ⟨S_, .f32⟩) main_cst_2).ofBuf (Val := Elt F) v = v := rfl
theorem toBuf_call0_v0 (v : (⟨S_, .f32⟩ : BufTy).Contents (Elt F)) : (TRef.of (T := ⟨S_, .f32⟩) main_call0_v0).toBuf (Val := Elt F) v = v := rfl
theorem ofBuf_call0_v0 (v : (⟨S_, .f32⟩ : BufTy).Contents (Elt F)) : (TRef.of (T := ⟨S_, .f32⟩) main_call0_v0).ofBuf (Val := Elt F) v = v := rfl
theorem toBuf_call0_v1 (v : (⟨S100000, .f32⟩ : BufTy).Contents (Elt F)) : (TRef.of (T := ⟨S100000, .f32⟩) main_call0_v1).toBuf (Val := Elt F) v = v := rfl
theorem ofBuf_call0_v1 (v : (⟨S100000, .f32⟩ : BufTy).Contents (Elt F)) : (TRef.of (T := ⟨S100000, .f32⟩) main_call0_v1).ofBuf (Val := Elt F) v = v := rfl
theorem toBuf_v12 (v : (⟨S100000, .i1⟩ : BufTy).Contents (Elt F)) : (TRef.of (T := ⟨S100000, .i1⟩) main_v12).toBuf (Val := Elt F) v = v := rfl
theorem ofBuf_v12 (v : (⟨S100000, .i1⟩ : BufTy).Contents (Elt F)) : (TRef.of (T := ⟨S100000, .i1⟩) main_v12).ofBuf (Val := Elt F) v = v := rfl
theorem toBuf_v13 (v : (⟨S100000, .f32⟩ : BufTy).Contents (Elt F)) : (TRef.of (T := ⟨S100000, .f32⟩) main_v13).toBuf (Val := Elt F) v = v := rfl
theorem ofBuf_v13 (v : (⟨S100000, .f32⟩ : BufTy).Contents (Elt F)) : (TRef.of (T := ⟨S100000, .f32⟩) main_v13).ofBuf (Val := Elt F) v = v := rfl
theorem toBuf_v14 (v : (⟨S100000, .f32⟩ : BufTy).Contents (Elt F)) : (TRef.of (T := ⟨S100000, .f32⟩) main_v14).toBuf (Val := Elt F) v = v := rfl
theorem ofBuf_v14 (v : (⟨S100000, .f32⟩ : BufTy).Contents (Elt F)) : (TRef.of (T := ⟨S100000, .f32⟩) main_v14).ofBuf (Val := Elt F) v = v := rfl
theorem toBuf_call1_cst (v : (⟨S_, .f32⟩ : BufTy).Contents (Elt F)) : (TRef.of (T := ⟨S_, .f32⟩) main_call1_cst).toBuf (Val := Elt F) v = v := rfl
theorem ofBuf_call1_cst (v : (⟨S_, .f32⟩ : BufTy).Contents (Elt F)) : (TRef.of (T := ⟨S_, .f32⟩) main_call1_cst).ofBuf (Val := Elt F) v = v := rfl
theorem toBuf_call1_v0 (v : (⟨S100000x128, .f32⟩ : BufTy).Contents (Elt F)) : (TRef.of (T := ⟨S100000x128, .f32⟩) main_call1_v0).toBuf (Val := Elt F) v = v := rfl
theorem ofBuf_call1_v0 (v : (⟨S100000x128, .f32⟩ : BufTy).Contents (Elt F)) : (TRef.of (T := ⟨S100000x128, .f32⟩) main_call1_v0).ofBuf (Val := Elt F) v = v := rfl
theorem toBuf_v46 (v : (⟨S100000x128, .f32⟩ : BufTy).Contents (Elt F)) : (TRef.of (T := ⟨S100000x128, .f32⟩) main_v46).toBuf (Val := Elt F) v = v := rfl
theorem ofBuf_v46 (v : (⟨S100000x128, .f32⟩ : BufTy).Contents (Elt F)) : (TRef.of (T := ⟨S100000x128, .f32⟩) main_v46).ofBuf (Val := Elt F) v = v := rfl
theorem toBuf_v47 (v : (⟨S100000x128, .f32⟩ : BufTy).Contents (Elt F)) : (TRef.of (T := ⟨S100000x128, .f32⟩) main_v47).toBuf (Val := Elt F) v = v := rfl
theorem ofBuf_v47 (v : (⟨S100000x128, .f32⟩ : BufTy).Contents (Elt F)) : (TRef.of (T := ⟨S100000x128, .f32⟩) main_v47).ofBuf (Val := Elt F) v = v := rfl
theorem toBuf_call2_cst (v : (⟨S_, .f32⟩ : BufTy).Contents (Elt F)) : (TRef.of (T := ⟨S_, .f32⟩) main_call2_cst).toBuf (Val := Elt F) v = v := rfl
theorem ofBuf_call2_cst (v : (⟨S_, .f32⟩ : BufTy).Contents (Elt F)) : (TRef.of (T := ⟨S_, .f32⟩) main_call2_cst).ofBuf (Val := Elt F) v = v := rfl
theorem toBuf_v64 (v : (⟨S100000x64, .f32⟩ : BufTy).Contents (Elt F)) : (TRef.of (T := ⟨S100000x64, .f32⟩) main_v64).toBuf (Val := Elt F) v = v := rfl
theorem ofBuf_v64 (v : (⟨S100000x64, .f32⟩ : BufTy).Contents (Elt F)) : (TRef.of (T := ⟨S100000x64, .f32⟩) main_v64).ofBuf (Val := Elt F) v = v := rfl
theorem toBuf_call2_v0 (v : (⟨S100000, .f32⟩ : BufTy).Contents (Elt F)) : (TRef.of (T := ⟨S100000, .f32⟩) main_call2_v0).toBuf (Val := Elt F) v = v := rfl
theorem ofBuf_call2_v0 (v : (⟨S100000, .f32⟩ : BufTy).Contents (Elt F)) : (TRef.of (T := ⟨S100000, .f32⟩) main_call2_v0).ofBuf (Val := Elt F) v = v := rfl
theorem toBuf_call2_cst_0 (v : (⟨S_, .f32⟩ : BufTy).Contents (Elt F)) : (TRef.of (T := ⟨S_, .f32⟩) main_call2_cst_0).toBuf (Val := Elt F) v = v := rfl
theorem ofBuf_call2_cst_0 (v : (⟨S_, .f32⟩ : BufTy).Contents (Elt F)) : (TRef.of (T := ⟨S_, .f32⟩) main_call2_cst_0).ofBuf (Val := Elt F) v = v := rfl
theorem toBuf_call2_v1 (v : (⟨S100000, .f32⟩ : BufTy).Contents (Elt F)) : (TRef.of (T := ⟨S100000, .f32⟩) main_call2_v1).toBuf (Val := Elt F) v = v := rfl
theorem ofBuf_call2_v1 (v : (⟨S100000, .f32⟩ : BufTy).Contents (Elt F)) : (TRef.of (T := ⟨S100000, .f32⟩) main_call2_v1).ofBuf (Val := Elt F) v = v := rfl
theorem toBuf_call2_v2 (v : (⟨S100000, .f32⟩ : BufTy).Contents (Elt F)) : (TRef.of (T := ⟨S100000, .f32⟩) main_call2_v2).toBuf (Val := Elt F) v = v := rfl
theorem ofBuf_call2_v2 (v : (⟨S100000, .f32⟩ : BufTy).Contents (Elt F)) : (TRef.of (T := ⟨S100000, .f32⟩) main_call2_v2).ofBuf (Val := Elt F) v = v := rfl
theorem toBuf_call2_v3 (v : (⟨S100000x1, .f32⟩ : BufTy).Contents (Elt F)) : (TRef.of (T := ⟨S100000x1, .f32⟩) main_call2_v3).toBuf (Val := Elt F) v = v := rfl
theorem ofBuf_call2_v3 (v : (⟨S100000x1, .f32⟩ : BufTy).Contents (Elt F)) : (TRef.of (T := ⟨S100000x1, .f32⟩) main_call2_v3).ofBuf (Val := Elt F) v = v := rfl
theorem toBuf_call2_v4 (v : (⟨S100000x64, .f32⟩ : BufTy).Contents (Elt F)) : (TRef.of (T := ⟨S100000x64, .f32⟩) main_call2_v4).toBuf (Val := Elt F) v = v := rfl
theorem ofBuf_call2_v4 (v : (⟨S100000x64, .f32⟩ : BufTy).Contents (Elt F)) : (TRef.of (T := ⟨S100000x64, .f32⟩) main_call2_v4).ofBuf (Val := Elt F) v = v := rfl
theorem toBuf_call2_v5 (v : (⟨S100000x64, .f32⟩ : BufTy).Contents (Elt F)) : (TRef.of (T := ⟨S100000x64, .f32⟩) main_call2_v5).toBuf (Val := Elt F) v = v := rfl
theorem ofBuf_call2_v5 (v : (⟨S100000x64, .f32⟩ : BufTy).Contents (Elt F)) : (TRef.of (T := ⟨S100000x64, .f32⟩) main_call2_v5).ofBuf (Val := Elt F) v = v := rfl
theorem toBuf_call2_v6 (v : (⟨S100000x64, .f32⟩ : BufTy).Contents (Elt F)) : (TRef.of (T := ⟨S100000x64, .f32⟩) main_call2_v6).toBuf (Val := Elt F) v = v := rfl
theorem ofBuf_call2_v6 (v : (⟨S100000x64, .f32⟩ : BufTy).Contents (Elt F)) : (TRef.of (T := ⟨S100000x64, .f32⟩) main_call2_v6).ofBuf (Val := Elt F) v = v := rfl
theorem toBuf_call2_cst_1 (v : (⟨S_, .f32⟩ : BufTy).Contents (Elt F)) : (TRef.of (T := ⟨S_, .f32⟩) main_call2_cst_1).toBuf (Val := Elt F) v = v := rfl
theorem ofBuf_call2_cst_1 (v : (⟨S_, .f32⟩ : BufTy).Contents (Elt F)) : (TRef.of (T := ⟨S_, .f32⟩) main_call2_cst_1).ofBuf (Val := Elt F) v = v := rfl
theorem toBuf_call2_v7 (v : (⟨S100000, .f32⟩ : BufTy).Contents (Elt F)) : (TRef.of (T := ⟨S100000, .f32⟩) main_call2_v7).toBuf (Val := Elt F) v = v := rfl
theorem ofBuf_call2_v7 (v : (⟨S100000, .f32⟩ : BufTy).Contents (Elt F)) : (TRef.of (T := ⟨S100000, .f32⟩) main_call2_v7).ofBuf (Val := Elt F) v = v := rfl
theorem toBuf_call2_v8 (v : (⟨S100000x1, .f32⟩ : BufTy).Contents (Elt F)) : (TRef.of (T := ⟨S100000x1, .f32⟩) main_call2_v8).toBuf (Val := Elt F) v = v := rfl
theorem ofBuf_call2_v8 (v : (⟨S100000x1, .f32⟩ : BufTy).Contents (Elt F)) : (TRef.of (T := ⟨S100000x1, .f32⟩) main_call2_v8).ofBuf (Val := Elt F) v = v := rfl
theorem toBuf_call2_v9 (v : (⟨S100000x1, .f32⟩ : BufTy).Contents (Elt F)) : (TRef.of (T := ⟨S100000x1, .f32⟩) main_call2_v9).toBuf (Val := Elt F) v = v := rfl
theorem ofBuf_call2_v9 (v : (⟨S100000x1, .f32⟩ : BufTy).Contents (Elt F)) : (TRef.of (T := ⟨S100000x1, .f32⟩) main_call2_v9).ofBuf (Val := Elt F) v = v := rfl
theorem toBuf_call2_v10 (v : (⟨S100000x64, .f32⟩ : BufTy).Contents (Elt F)) : (TRef.of (T := ⟨S100000x64, .f32⟩) main_call2_v10).toBuf (Val := Elt F) v = v := rfl
theorem ofBuf_call2_v10 (v : (⟨S100000x64, .f32⟩ : BufTy).Contents (Elt F)) : (TRef.of (T := ⟨S100000x64, .f32⟩) main_call2_v10).ofBuf (Val := Elt F) v = v := rfl
theorem toBuf_v65 (v : (⟨S100000x64, .f32⟩ : BufTy).Contents (Elt F)) : (TRef.of (T := ⟨S100000x64, .f32⟩) main_v65).toBuf (Val := Elt F) v = v := rfl
theorem ofBuf_v65 (v : (⟨S100000x64, .f32⟩ : BufTy).Contents (Elt F)) : (TRef.of (T := ⟨S100000x64, .f32⟩) main_v65).ofBuf (Val := Elt F) v = v := rfl

/-! ## Piece A: the edge data -/
theorem src_eq (V : Valuation τ sig (Elt F)) : after cA V (Proc.devRef .tc main_v3) = ReadP.val_main_v3 (F := F) (V (Proc.devRef .tc main_arg1)) := by
  dsimp only [cA]; after_results; rfl
theorem dst_eq (V : Valuation τ sig (Elt F)) : after cA V (Proc.devRef .tc main_v6) = ReadP.val_main_v6 (F := F) (V (Proc.devRef .tc main_arg1)) := by
  dsimp only [cA]; after_results; rfl
set_option maxHeartbeats 4000000 in
theorem nrm_eq (V : Valuation τ sig (Elt F)) : after cA V (Proc.devRef .tc main_v29) = ReadP.val_main_v29 (F := F) (V (Proc.devRef .tc main_arg1)) := by
  dsimp only [cA]; after_results_simp; rfl
theorem keepA_arg0 (V : Valuation τ sig (Elt F)) : after cA V (Proc.devRef .tc main_arg0) = V (Proc.devRef .tc main_arg0) := by
  dsimp only [cA]; after_results
theorem keepA_arg2 (V : Valuation τ sig (Elt F)) : after cA V (Proc.devRef .tc main_arg2) = V (Proc.devRef .tc main_arg2) := by
  dsimp only [cA]; after_results
theorem keepA_arg3 (V : Valuation τ sig (Elt F)) : after cA V (Proc.devRef .tc main_arg3) = V (Proc.devRef .tc main_arg3) := by
  dsimp only [cA]; after_results
theorem keepA_arg4 (V : Valuation τ sig (Elt F)) : after cA V (Proc.devRef .tc main_arg4) = V (Proc.devRef .tc main_arg4) := by
  dsimp only [cA]; after_results
theorem keepA_arg5 (V : Valuation τ sig (Elt F)) : after cA V (Proc.devRef .tc main_arg5) = V (Proc.devRef .tc main_arg5) := by
  dsimp only [cA]; after_results

/-! ## Piece B: the first product -/
theorem prod1_eq (V : Valuation τ sig (Elt F)) : after cB V (Proc.devRef .tc main_v30)
    = Host.dotGeneral dot_S100000x128_S128x128_S100000x128_1_0_0_1_n_n none (V (Proc.devRef .tc main_arg0)) (V (Proc.devRef .tc main_arg2)) := by
  dsimp only [cB]; after_results
theorem keepB_v3 (V : Valuation τ sig (Elt F)) : after cB V (Proc.devRef .tc main_v3) = V (Proc.devRef .tc main_v3) := by
  dsimp only [cB]; after_results
theorem keepB_v6 (V : Valuation τ sig (Elt F)) : after cB V (Proc.devRef .tc main_v6) = V (Proc.devRef .tc main_v6) := by
  dsimp only [cB]; after_results
theorem keepB_v29 (V : Valuation τ sig (Elt F)) : after cB V (Proc.devRef .tc main_v29) = V (Proc.devRef .tc main_v29) := by
  dsimp only [cB]; after_results
theorem keepB_arg3 (V : Valuation τ sig (Elt F)) : after cB V (Proc.devRef .tc main_arg3) = V (Proc.devRef .tc main_arg3) := by
  dsimp only [cB]; after_results
theorem keepB_arg4 (V : Valuation τ sig (Elt F)) : after cB V (Proc.devRef .tc main_arg4) = V (Proc.devRef .tc main_arg4) := by
  dsimp only [cB]; after_results
theorem keepB_arg5 (V : Valuation τ sig (Elt F)) : after cB V (Proc.devRef .tc main_arg5) = V (Proc.devRef .tc main_arg5) := by
  dsimp only [cB]; after_results

/-! ## Piece C: the first round of messages -/
set_option maxHeartbeats 4000000 in
theorem msg1_eq (V : Valuation τ sig (Elt F)) : after cC V (Proc.devRef .tc main_v43)
    = messages128 (F := F) (V (Proc.devRef .tc main_v30)) (V (Proc.devRef .tc main_v3)) (V (Proc.devRef .tc main_v6)) (V (Proc.devRef .tc main_v29)) := by
  dsimp only [cC]; after_results_simp; rfl
theorem keepC_v3 (V : Valuation τ sig (Elt F)) : after cC V (Proc.devRef .tc main_v3) = V (Proc.devRef .tc main_v3) := by
  dsimp only [cC]; after_results
theorem keepC_v6 (V : Valuation τ sig (Elt F)) : after cC V (Proc.devRef .tc main_v6) = V (Proc.devRef .tc main_v6) := by
  dsimp only [cC]; after_results
theorem keepC_v29 (V : Valuation τ sig (Elt F)) : after cC V (Proc.devRef .tc main_v29) = V (Proc.devRef .tc main_v29) := by
  dsimp only [cC]; after_results
theorem keepC_arg3 (V : Valuation τ sig (Elt F)) : after cC V (Proc.devRef .tc main_arg3) = V (Proc.devRef .tc main_arg3) := by
  dsimp only [cC]; after_results
theorem keepC_arg4 (V : Valuation τ sig (Elt F)) : after cC V (Proc.devRef .tc main_arg4) = V (Proc.devRef .tc main_arg4) := by
  dsimp only [cC]; after_results
theorem keepC_arg5 (V : Valuation τ sig (Elt F)) : after cC V (Proc.devRef .tc main_arg5) = V (Proc.devRef .tc main_arg5) := by
  dsimp only [cC]; after_results

/-! ## Piece D: bias and relu -/
theorem relu_eq (V : Valuation τ sig (Elt F)) : after cD V (Proc.devRef .tc main_v47) = biasRelu (F := F) (V (Proc.devRef .tc main_v43)) (V (Proc.devRef .tc main_arg3)) := by
  dsimp only [cD]; after_results; rfl
theorem keepD_v3 (V : Valuation τ sig (Elt F)) : after cD V (Proc.devRef .tc main_v3) = V (Proc.devRef .tc main_v3) := by
  dsimp only [cD]; after_results
theorem keepD_v6 (V : Valuation τ sig (Elt F)) : after cD V (Proc.devRef .tc main_v6) = V (Proc.devRef .tc main_v6) := by
  dsimp only [cD]; after_results
theorem keepD_v29 (V : Valuation τ sig (Elt F)) : after cD V (Proc.devRef .tc main_v29) = V (Proc.devRef .tc main_v29) := by
  dsimp only [cD]; after_results
theorem keepD_arg4 (V : Valuation τ sig (Elt F)) : after cD V (Proc.devRef .tc main_arg4) = V (Proc.devRef .tc main_arg4) := by
  dsimp only [cD]; after_results
theorem keepD_arg5 (V : Valuation τ sig (Elt F)) : after cD V (Proc.devRef .tc main_arg5) = V (Proc.devRef .tc main_arg5) := by
  dsimp only [cD]; after_results

/-! ## Piece E: the second product -/
theorem prod2_eq (V : Valuation τ sig (Elt F)) : after cE V (Proc.devRef .tc main_v48)
    = Host.dotGeneral dot_S100000x128_S128x64_S100000x64_1_0_0_1_n_n none (V (Proc.devRef .tc main_v47)) (V (Proc.devRef .tc main_arg4)) := by
  dsimp only [cE]; after_results
theorem keepE_v3 (V : Valuation τ sig (Elt F)) : after cE V (Proc.devRef .tc main_v3) = V (Proc.devRef .tc main_v3) := by
  dsimp only [cE]; after_results
theorem keepE_v6 (V : Valuation τ sig (Elt F)) : after cE V (Proc.devRef .tc main_v6) = V (Proc.devRef .tc main_v6) := by
  dsimp only [cE]; after_results
theorem keepE_v29 (V : Valuation τ sig (Elt F)) : after cE V (Proc.devRef .tc main_v29) = V (Proc.devRef .tc main_v29) := by
  dsimp only [cE]; after_results
theorem keepE_arg5 (V : Valuation τ sig (Elt F)) : after cE V (Proc.devRef .tc main_arg5) = V (Proc.devRef .tc main_arg5) := by
  dsimp only [cE]; after_results

/-! ## Piece F: the second round of messages -/
set_option maxHeartbeats 4000000 in
theorem msg2_eq (V : Valuation τ sig (Elt F)) : after cF V (Proc.devRef .tc main_v61)
    = messages64 (F := F) (V (Proc.devRef .tc main_v48)) (V (Proc.devRef .tc main_v3)) (V (Proc.devRef .tc main_v6)) (V (Proc.devRef .tc main_v29)) := by
  dsimp only [cF]; after_results_simp; rfl
theorem keepF_arg5 (V : Valuation τ sig (Elt F)) : after cF V (Proc.devRef .tc main_arg5) = V (Proc.devRef .tc main_arg5) := by
  dsimp only [cF]; after_results

/-! ## Piece G: bias and log-softmax, in three steps -/

/-- Operations 81 … 83 of @main. -/
abbrev g1 : List (HloOp τ sig (Elt F)) :=
  [ unary main_arg5 main_v62 (broadcastInDim S1x64 ![1] bcast_S64_S1x64_1 : (⟨S64, .f32⟩ : BufTy).Contents (Elt F) → (⟨S1x64, .f32⟩ : BufTy).Contents (Elt F)),
    unary main_v62 main_v63 (broadcastInDim S100000x64 ![0, 1] bcast_S1x64_S100000x64_0_1 : (⟨S1x64, .f32⟩ : BufTy).Contents (Elt F) → (⟨S100000x64, .f32⟩ : BufTy).Contents (Elt F)),
    binary main_v61 main_v63 main_v64 (addf : (⟨S100000x64, .f32⟩ : BufTy).Contents (Elt F) → (⟨S100000x64, .f32⟩ : BufTy).Contents (Elt F) → (⟨S100000x64, .f32⟩ : BufTy).Contents (Elt F)) ]

/-- Operations 84 … 91 of @main. -/
abbrev g2 : List (HloOp τ sig (Elt F)) :=
  [ TRef.nullary (TRef.of (T := ⟨S_, .f32⟩) main_call2_cst) (constant S_ .f32 0xFF800000#32),
    TRef.binary (TRef.of (T := ⟨S100000x64, .f32⟩) main_v64) (TRef.of (T := ⟨S_, .f32⟩) main_call2_cst) (TRef.of (T := ⟨S100000, .f32⟩) main_call2_v0) (fun x v => Host.reduce FloatOps.maximumf x v reducesTo_S100000x64_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x64, .f32⟩) main_call2_v4) (broadcastInDim S100000x64 ![0, 1] bcast_S100000x1_S100000x64_0_1),
    TRef.binary (TRef.of (T := ⟨S100000x64, .f32⟩) main_v64) (TRef.of (T := ⟨S100000x64, .f32⟩) main_call2_v4) (TRef.of (T := ⟨S100000x64, .f32⟩) main_call2_v5) subf ]

/-- Operations 92 … 98 of @main. -/
abbrev g3 : List (HloOp τ sig (Elt F)) :=
  [ TRef.unary (TRef.of (T := ⟨S100000x64, .f32⟩) main_call2_v5) (TRef.of (T := ⟨S100000x64, .f32⟩) main_call2_v6) Host.exp,
    TRef.nullary (TRef.of (T := ⟨S_, .f32⟩) main_call2_cst_1) (constant S_ .f32 0x00000000#32),
    TRef.binary (TRef.of (T := ⟨S100000x64, .f32⟩) main_call2_v6) (TRef.of (T := ⟨S_, .f32⟩) main_call2_cst_1) (TRef.of (T := ⟨S100000, .f32⟩) main_call2_v7) (fun x v => Host.reduceAdd x v reducesTo_S100000x64_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x64, .f32⟩) main_call2_v10) (broadcastInDim S100000x64 ![0, 1] bcast_S100000x1_S100000x64_0_1),
    TRef.binary (TRef.of (T := ⟨S100000x64, .f32⟩) main_call2_v5) (TRef.of (T := ⟨S100000x64, .f32⟩) main_call2_v10) (TRef.of (T := ⟨S100000x64, .f32⟩) main_v65) subf ]

/-- The three steps, in order, are piece G. -/
theorem cG_cut : (cG : List (HloOp τ sig (Elt F))) = g1 ++ (g2 ++ g3) := rfl

theorem bias2_eq (V : Valuation τ sig (Elt F)) : after g1 V (Proc.devRef .tc main_v64) = biased64 (F := F) (V (Proc.devRef .tc main_v61)) (V (Proc.devRef .tc main_arg5)) := by
  dsimp only [g1]; after_results; rfl
theorem shift_eq (V : Valuation τ sig (Elt F)) : after g2 V (Proc.devRef .tc main_call2_v5) = shifted (F := F) (V (Proc.devRef .tc main_v64)) := by
  dsimp only [g2]; after_results
  unfold shifted
  refine (toBuf_call2_v5 _).trans ?_
  refine congrArg₂ (subf : (⟨S100000x64, .f32⟩ : BufTy).Contents (Elt F) → (⟨S100000x64, .f32⟩ : BufTy).Contents (Elt F) → (⟨S100000x64, .f32⟩ : BufTy).Contents (Elt F)) (ofBuf_v64 _) ?_
  refine (ofBuf_call2_v4 _).trans ((toBuf_call2_v4 _).trans ?_)
  refine congrArg (broadcastInDim S100000x64 ![0, 1] bcast_S100000x1_S100000x64_0_1 : (⟨S100000x1, .f32⟩ : BufTy).Contents (Elt F) → (⟨S100000x64, .f32⟩ : BufTy).Contents (Elt F)) ?_
  refine (ofBuf_call2_v3 _).trans ((toBuf_call2_v3 _).trans ?_)
  refine congrArg (broadcastInDim S100000x1 ![0] bcast_S100000_S100000x1_0 : (⟨S100000, .f32⟩ : BufTy).Contents (Elt F) → (⟨S100000x1, .f32⟩ : BufTy).Contents (Elt F)) ?_
  refine (ofBuf_call2_v2 _).trans ((toBuf_call2_v2 _).trans ?_)
  refine congrArg₂ (maximumf : (⟨S100000, .f32⟩ : BufTy).Contents (Elt F) → (⟨S100000, .f32⟩ : BufTy).Contents (Elt F) → (⟨S100000, .f32⟩ : BufTy).Contents (Elt F)) ?_ ?_
  · refine (ofBuf_call2_v1 _).trans ((toBuf_call2_v1 _).trans ?_)
    refine congrArg (broadcastInDim S100000 ![] bcast_S_S100000 : (⟨S_, .f32⟩ : BufTy).Contents (Elt F) → (⟨S100000, .f32⟩ : BufTy).Contents (Elt F)) ?_
    exact (ofBuf_call2_cst_0 _).trans (toBuf_call2_cst_0 _)
  · refine (ofBuf_call2_v0 _).trans ((toBuf_call2_v0 _).trans ?_)
    refine congrArg₂ (fun (x : (⟨S100000x64, .f32⟩ : BufTy).Contents (Elt F)) (v : (⟨S_, .f32⟩ : BufTy).Contents (Elt F)) => (Host.reduce FloatOps.maximumf x v reducesTo_S100000x64_S100000_d1 h_S_ : (⟨S100000, .f32⟩ : BufTy).Contents (Elt F))) (ofBuf_v64 _) ?_
    exact (ofBuf_call2_cst _).trans (toBuf_call2_cst _)
theorem norm_eq (V : Valuation τ sig (Elt F)) : after g3 V (Proc.devRef .tc main_v65) = normalised (F := F) (V (Proc.devRef .tc main_call2_v5)) := by
  dsimp only [g3]; after_results
  unfold normalised
  refine (toBuf_v65 _).trans ?_
  refine congrArg₂ (subf : (⟨S100000x64, .f32⟩ : BufTy).Contents (Elt F) → (⟨S100000x64, .f32⟩ : BufTy).Contents (Elt F) → (⟨S100000x64, .f32⟩ : BufTy).Contents (Elt F)) (ofBuf_call2_v5 _) ?_
  refine (ofBuf_call2_v10 _).trans ((toBuf_call2_v10 _).trans ?_)
  refine congrArg (broadcastInDim S100000x64 ![0, 1] bcast_S100000x1_S100000x64_0_1 : (⟨S100000x1, .f32⟩ : BufTy).Contents (Elt F) → (⟨S100000x64, .f32⟩ : BufTy).Contents (Elt F)) ?_
  refine (ofBuf_call2_v9 _).trans ((toBuf_call2_v9 _).trans ?_)
  refine congrArg (Host.log : (⟨S100000x1, .f32⟩ : BufTy).Contents (Elt F) → (⟨S100000x1, .f32⟩ : BufTy).Contents (Elt F)) ?_
  refine (ofBuf_call2_v8 _).trans ((toBuf_call2_v8 _).trans ?_)
  refine congrArg (broadcastInDim S100000x1 ![0] bcast_S100000_S100000x1_0 : (⟨S100000, .f32⟩ : BufTy).Contents (Elt F) → (⟨S100000x1, .f32⟩ : BufTy).Contents (Elt F)) ?_
  refine (ofBuf_call2_v7 _).trans ((toBuf_call2_v7 _).trans ?_)
  refine congrArg₂ (fun (x : (⟨S100000x64, .f32⟩ : BufTy).Contents (Elt F)) (v : (⟨S_, .f32⟩ : BufTy).Contents (Elt F)) => (Host.reduceAdd x v reducesTo_S100000x64_S100000_d1 h_S_ : (⟨S100000, .f32⟩ : BufTy).Contents (Elt F))) ?_ ?_
  · refine (ofBuf_call2_v6 _).trans ((toBuf_call2_v6 _).trans ?_)
    exact congrArg (Host.exp : (⟨S100000x64, .f32⟩ : BufTy).Contents (Elt F) → (⟨S100000x64, .f32⟩ : BufTy).Contents (Elt F)) (ofBuf_call2_v5 _)
  · exact (ofBuf_call2_cst_1 _).trans (toBuf_call2_cst_1 _)
theorem lsm_eq (V : Valuation τ sig (Elt F)) : after cG V (Proc.devRef .tc main_v65) = logSoftmax (F := F) (biased64 (F := F) (V (Proc.devRef .tc main_v61)) (V (Proc.devRef .tc main_arg5))) := by
  rw [cG_cut, after_append, after_append, norm_eq, shift_eq, bias2_eq]
  rfl

/-! ## The whole line -/

/-- The returned buffer as one composition of the steps over the launch contents. -/
theorem result_eq (V : Valuation τ sig (Elt F)) : after ops V (Proc.devRef .tc main_v65)
    = logSoftmax (F := F) (biased64 (F := F)
        (messages64 (F := F)
          (Host.dotGeneral dot_S100000x128_S128x64_S100000x64_1_0_0_1_n_n none
            (biasRelu (F := F)
              (messages128 (F := F)
                (Host.dotGeneral dot_S100000x128_S128x128_S100000x128_1_0_0_1_n_n none (V (Proc.devRef .tc main_arg0)) (V (Proc.devRef .tc main_arg2)))
                (ReadP.val_main_v3 (F := F) (V (Proc.devRef .tc main_arg1))) (ReadP.val_main_v6 (F := F) (V (Proc.devRef .tc main_arg1))) (ReadP.val_main_v29 (F := F) (V (Proc.devRef .tc main_arg1))))
              (V (Proc.devRef .tc main_arg3)))
            (V (Proc.devRef .tc main_arg4)))
          (ReadP.val_main_v3 (F := F) (V (Proc.devRef .tc main_arg1))) (ReadP.val_main_v6 (F := F) (V (Proc.devRef .tc main_arg1))) (ReadP.val_main_v29 (F := F) (V (Proc.devRef .tc main_arg1))))
        (V (Proc.devRef .tc main_arg5))) := by
  rw [after_ops, lsm_eq, msg2_eq, keepF_arg5,
    prod2_eq, keepE_v3, keepE_v6, keepE_v29, keepE_arg5,
    relu_eq, keepD_v3, keepD_v6, keepD_v29, keepD_arg4, keepD_arg5,
    msg1_eq, keepC_v3, keepC_v6, keepC_v29, keepC_arg3, keepC_arg4, keepC_arg5,
    prod1_eq, keepB_v3, keepB_v6, keepB_v29, keepB_arg3, keepB_arg4, keepB_arg5,
    src_eq, dst_eq, nrm_eq, keepA_arg0, keepA_arg2, keepA_arg3, keepA_arg4, keepA_arg5]

end Cert.ReferenceIdeal.Stages

end
-- ==== Proof.LinearBridge.lean ====
/- The kernel's two linear layers against the reference's two matrix products.

   The kernel side ends each linear region with the output array equal, entry by entry, to "row `r` of the input
   times column `j` of the weights" (`rowsTimes0`, `rowsTimes2`). The reference computes the same layers with the
   host's `dot_general`, contracting the input's second axis with the weights' first. At the ideal values that
   product, read at entry `(r, j)`, is the sum over the one contracted coordinate `k` of input `(r, k)` times
   weights `(k, j)` — the same sum. So the two arrays are equal as functions, for arbitrary operands. -/
import proofs.«110104_j21534966022499_1_alg».proof.Proof.LinearBlocks
import proofs.«110104_j21534966022499_1_alg».proof.Proof.RefReadPatched

set_option maxRecDepth 16384

noncomputable section

namespace Cert.Bridge.Linear

open Idealize.ShloMosaic Idealize.ShloMosaic.ValueIdx
open Cert.ReferenceIdeal.Gen

/-- The array of region 0's row-times-matrix entries IS the host's matrix product of the same two arrays: entry by
    entry both are the sum over the contracted coordinate of the products of the row's and the column's entries. -/
theorem rowsTimes0_eq_dot (A : Cert.KernelIdeal.S100000x128.Idx → EReal) (W : Cert.KernelIdeal.S128x128.Idx → EReal) :
    Cert.KernelIdeal.LinearBlocks.rowsTimes0 A W
      = Host.dotGeneral (F := Ideal) (φ₁ := .f32) (φ₂ := .f32) Cert.ReferenceIdeal.dot_S100000x128_S128x128_S100000x128_1_0_0_1_n_n none A W := by
  funext i
  obtain ⟨r, j, rfl⟩ : ∃ (r : Fin 100000) (j : Fin 128), i = ix2 r j := ⟨i 0, i 1, eq_ix2 i⟩
  rw [Cert.KernelIdeal.LinearBlocks.rowsTimes0_apply]
  symm
  simp only [Host.dotGeneral]
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 r j) ((contrEquiv1 Cert.ReferenceIdeal.dot_S100000x128_S128x128_S100000x128_1_0_0_1_n_n 128 rfl rfl).symm k) = ix2 r k := funext fun a => Fin.ext (by
    match a with
    | ⟨0, _⟩ => exact Cert.ReferenceIdeal.ReadP.lhs_main_v30_0 _ _
    | ⟨1, _⟩ => exact (Cert.ReferenceIdeal.ReadP.lhs_main_v30_1 _ _).trans hk)
  have er : Cert.ReferenceIdeal.dot_S100000x128_S128x128_S100000x128_1_0_0_1_n_n.rhsIdx (ix2 r j) ((contrEquiv1 Cert.ReferenceIdeal.dot_S100000x128_S128x128_S100000x128_1_0_0_1_n_n 128 rfl rfl).symm k) = ix2 k j := funext fun a => Fin.ext (by
    match a with
    | ⟨0, _⟩ => exact (Cert.ReferenceIdeal.ReadP.rhs_main_v30_0 _ _).trans hk
    | ⟨1, _⟩ => exact Cert.ReferenceIdeal.ReadP.rhs_main_v30_1 _ _)
  rw [el, er]

/-- The array of region 2's row-times-matrix entries IS the host's matrix product of the same two arrays: entry by
    entry both are the sum over the contracted coordinate of the products of the row's and the column's entries. -/
theorem rowsTimes2_eq_dot (A : Cert.KernelIdeal.S100000x128.Idx → EReal) (W : Cert.KernelIdeal.S128x64.Idx → EReal) :
    Cert.KernelIdeal.LinearBlocks.rowsTimes2 A W
      = Host.dotGeneral (F := Ideal) (φ₁ := .f32) (φ₂ := .f32) Cert.ReferenceIdeal.dot_S100000x128_S128x64_S100000x64_1_0_0_1_n_n none A W := by
  funext i
  obtain ⟨r, j, rfl⟩ : ∃ (r : Fin 100000) (j : Fin 64), i = ix2 r j := ⟨i 0, i 1, eq_ix2 i⟩
  rw [Cert.KernelIdeal.LinearBlocks.rowsTimes2_apply]
  symm
  simp only [Host.dotGeneral]
  rw [Ideal.dotGeneral_apply, ← Equiv.sum_comp (contrEquiv1 Cert.ReferenceIdeal.dot_S100000x128_S128x64_S100000x64_1_0_0_1_n_n 128 rfl rfl).symm]
  refine Finset.sum_congr rfl fun k _ => ?_
  have hk := contrEquiv1_symm_val Cert.ReferenceIdeal.dot_S100000x128_S128x64_S100000x64_1_0_0_1_n_n 128 rfl rfl k
  have el : Cert.ReferenceIdeal.dot_S100000x128_S128x64_S100000x64_1_0_0_1_n_n.lhsIdx (ix2 r j) ((contrEquiv1 Cert.ReferenceIdeal.dot_S100000x128_S128x64_S100000x64_1_0_0_1_n_n 128 rfl rfl).symm k) = ix2 r k := funext fun a => Fin.ext (by
    match a with
    | ⟨0, _⟩ => exact Cert.ReferenceIdeal.ReadP.lhs_main_v48_0 _ _
    | ⟨1, _⟩ => exact (Cert.ReferenceIdeal.ReadP.lhs_main_v48_1 _ _).trans hk)
  have er : Cert.ReferenceIdeal.dot_S100000x128_S128x64_S100000x64_1_0_0_1_n_n.rhsIdx (ix2 r j) ((contrEquiv1 Cert.ReferenceIdeal.dot_S100000x128_S128x64_S100000x64_1_0_0_1_n_n 128 rfl rfl).symm k) = ix2 k j := funext fun a => Fin.ext (by
    match a with
    | ⟨0, _⟩ => exact (Cert.ReferenceIdeal.ReadP.rhs_main_v48_0 _ _).trans hk
    | ⟨1, _⟩ => exact Cert.ReferenceIdeal.ReadP.rhs_main_v48_1 _ _)
  rw [el, er]

end Cert.Bridge.Linear

end
-- ==== Proof.LogSoftmaxBridge.lean ====
/- The kernel's row-wise log-softmax and the reference's are one function. The kernel's output array is, row by row, the
   row function of the input row plus the bias row; the reference's host steps — the bias spread over the rows, each row
   less its maximum, less the logarithm of its sum of exponentials — read at one element are the same row function of the
   same row. -/
import proofs.«110104_j21534966022499_1_alg».proof.Proof.LogSoftmaxBlocks
import proofs.«110104_j21534966022499_1_alg».proof.Proof.BiasRow
import proofs.«110104_j21534966022499_1_alg».proof.Proof.HostSteps

set_option maxRecDepth 16384

noncomputable section

namespace Cert.Bridge.LogSoftmax

open Idealize.ShloMosaic Idealize.ShloMosaic.ValueIdx
open Cert.KernelIdeal.LogSoftmaxBlocks

/-! ## The reference's bias add, read at an index -/

section Layout
variable {α : Type}

/-- A vector `[b]` set as the one-row matrix `[1, b]` reads, at `(u, c)`, the vector at `c`. -/
theorem broadcastInDim_b_1b_apply {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- A one-row matrix `[1, b]` spread over `a` rows reads, at `(p, c)`, its row at `c`. -/
theorem broadcastInDim_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

end Layout

/-- The reference's biased array at `(r, j)`: the entry plus the bias at lane `j`. -/
theorem biased64_apply (A : Cert.KernelIdeal.S100000x64.Idx → EReal) (b : Cert.KernelIdeal.S64.Idx → EReal)
    (r : Fin 100000) (j : Fin 64) :
    Cert.ReferenceIdeal.Steps.biased64 (F := Ideal) A b (ix2 r j) = A (ix2 r j) + b (ix1 j) := by
  unfold Cert.ReferenceIdeal.Steps.biased64
  rw [addf_apply, broadcastInDim_1b_ab_apply, broadcastInDim_b_1b_apply]

/-- The reference's log-softmax steps are the host's spelling of the row function at the reference's own shape facts. -/
theorem logSoftmax_eq_host (z : FVec Ideal ⟨2, ![100000, 64]⟩ .f32) :
    Cert.ReferenceIdeal.Steps.logSoftmax (F := Ideal) z
      = hostLogSoftmax z Cert.ReferenceIdeal.Gen.reducesTo_S100000x64_S100000_d1 Cert.ReferenceIdeal.Gen.h_S_
          Cert.ReferenceIdeal.Gen.bcast_S_S100000 Cert.ReferenceIdeal.Gen.bcast_S100000_S100000x1_0
          Cert.ReferenceIdeal.Gen.bcast_S100000x1_S100000x64_0_1 := rfl

/-- The reference's log-softmax of an array at `(r, q)`: the row function of row `r` at lane `q`. -/
theorem logSoftmax_apply (z : FVec Ideal ⟨2, ![100000, 64]⟩ .f32) (r : Fin 100000) (q : Fin 64) :
    Cert.ReferenceIdeal.Steps.logSoftmax (F := Ideal) z (ix2 r q) = rowLogSoftmax (fun j => z (ix2 r j)) q := by
  rw [logSoftmax_eq_host]
  exact hostLogSoftmax_apply z _ _ _ _ _ r q

/-- THE TWO SIDES MEET: the kernel's output array, as a function of the input array and the bias set as a row, is the
    reference's log-softmax of its biased array. -/
theorem logSoftmax_eq (A : Cert.KernelIdeal.S100000x64.Idx → EReal) (b : Cert.KernelIdeal.S64.Idx → EReal) :
    Cert.KernelIdeal.LogSoftmaxBlocks.G A (Cert.Bridge.asRow b)
      = Cert.ReferenceIdeal.Steps.logSoftmax (F := Ideal) (Cert.ReferenceIdeal.Steps.biased64 (F := Ideal) A b) := by
  funext i
  obtain ⟨r, q, rfl⟩ : ∃ (r : Fin 100000) (q : Fin 64), i = ix2 r q := ⟨i 0, i 1, eq_ix2 i⟩
  rw [logSoftmax_apply]
  show rowLogSoftmax (biasedRow A (Cert.Bridge.asRow b) r) q = _
  exact congrArg (fun f => rowLogSoftmax f q)
    (funext fun j => by rw [biasedRow_apply, Cert.Bridge.asRow_apply, biased64_apply])

end Cert.Bridge.LogSoftmax

end
-- ==== Proof.Agreement.lean ====
/-
  The two programs' results are one function of the arguments. Read stage by stage, the kernel's program returns the
  row-wise log-softmax (over row blocks) of the second round of messages of the block-wise product of the block-wise
  bias-and-relu of the first round of messages of the block-wise product; the reference returns the same composition
  with whole-array products, broadcasts and reductions. Stage by stage they agree: a product computed block of rows by
  block of rows is the whole product; adding a bias row to every row of a block and cutting at zero is the whole-array
  bias and relu; the log-softmax of a row does not depend on the block the row sits in. The edge data and the two
  rounds of messages are the same host operations in both.
-/
import proofs.«110104_j21534966022499_1_alg».proof.Proof.LinearBridge
import proofs.«110104_j21534966022499_1_alg».proof.Proof.BiasReluBridge
import proofs.«110104_j21534966022499_1_alg».proof.Proof.LogSoftmaxBridge
import proofs.«110104_j21534966022499_1_alg».proof.Proof.RefReadPatched

set_option maxRecDepth 16384

noncomputable section

namespace Cert.Agreement

open Idealize.ShloMosaic Cert.ReferenceIdeal.Steps Cert.ReferenceIdeal.Gen

/-- The kernel's composition of stages is the reference's. -/
theorem closed_forms_agree (x0 : Cert.KernelIdeal.S100000x128.Idx → EReal) (x1 : (⟨Cert.ReferenceIdeal.S2x1600000, .i32⟩ : BufTy).Contents (Elt Ideal))
    (x2 : Cert.KernelIdeal.S128x128.Idx → EReal) (x3 : Cert.KernelIdeal.S128.Idx → EReal) (x4 : Cert.KernelIdeal.S128x64.Idx → EReal) (x5 : Cert.KernelIdeal.S64.Idx → EReal) :
    Cert.KernelIdeal.LogSoftmaxBlocks.G
      (messages64 (F := Ideal)
        (Cert.KernelIdeal.LinearBlocks.rowsTimes2
          (Cert.KernelIdeal.BiasReluBlocks.biasRelu
            (messages128 (F := Ideal) (Cert.KernelIdeal.LinearBlocks.rowsTimes0 x0 x2) (Cert.ReferenceIdeal.ReadP.val_main_v3 (F := Ideal) x1) (Cert.ReferenceIdeal.ReadP.val_main_v6 (F := Ideal) x1) (Cert.ReferenceIdeal.ReadP.val_main_v29 (F := Ideal) x1))
            (Cert.Bridge.asRow (n := 128) x3))
          x4)
        (Cert.ReferenceIdeal.ReadP.val_main_v3 (F := Ideal) x1) (Cert.ReferenceIdeal.ReadP.val_main_v6 (F := Ideal) x1) (Cert.ReferenceIdeal.ReadP.val_main_v29 (F := Ideal) x1))
      (Cert.Bridge.asRow (n := 64) x5)
    = logSoftmax (F := Ideal) (biased64 (F := Ideal)
        (messages64 (F := Ideal)
          (Host.dotGeneral (F := Ideal) (φ₁ := .f32) (φ₂ := .f32) Cert.ReferenceIdeal.dot_S100000x128_S128x64_S100000x64_1_0_0_1_n_n none
            (Cert.ReferenceIdeal.Steps.biasRelu (F := Ideal)
              (messages128 (F := Ideal)
                (Host.dotGeneral (F := Ideal) (φ₁ := .f32) (φ₂ := .f32) Cert.ReferenceIdeal.dot_S100000x128_S128x128_S100000x128_1_0_0_1_n_n none x0 x2)
                (Cert.ReferenceIdeal.ReadP.val_main_v3 (F := Ideal) x1) (Cert.ReferenceIdeal.ReadP.val_main_v6 (F := Ideal) x1) (Cert.ReferenceIdeal.ReadP.val_main_v29 (F := Ideal) x1))
              x3)
            x4)
          (Cert.ReferenceIdeal.ReadP.val_main_v3 (F := Ideal) x1) (Cert.ReferenceIdeal.ReadP.val_main_v6 (F := Ideal) x1) (Cert.ReferenceIdeal.ReadP.val_main_v29 (F := Ideal) x1))
        x5) := by
  rw [Cert.Bridge.LogSoftmax.logSoftmax_eq, Cert.Bridge.Linear.rowsTimes2_eq_dot, Cert.Bridge.BiasRelu.biasRelu_eq, Cert.Bridge.Linear.rowsTimes0_eq_dot]

end Cert.Agreement

end
-- ==== Proof.lean ====
/-
  The certificate's claim for the two-layer graph convolution: the kernel's program (four pallas_call regions — a
  product, bias and relu, a product, bias and log-softmax — among host stretches that gather, scale and scatter-add
  along the edges) against its jnp reference.

  The three frame claims: the two kernel programs' frames are the generated ones; the reference's is its run with the
  result dropped. The idealization rewrote no operation, so there is nothing to preserve. The value claim: both programs
  end, and their results are equal as extended reals, element by element. Read boundary by boundary, the kernel's result
  is one composition of whole-array functions of the arguments (each region's output array is a whole-array function of
  the arrays it finds, because its row blocks are restrictions of that function and tile the rows); read piece by piece,
  the reference's is the same composition in its own spelling; and the spellings agree stage by stage: a product computed
  block of rows by block of rows is the product, a bias added to every row of a block is the bias added to every row, and
  the log-softmax of a row does not depend on its block. No finiteness is used: every stage is the same function on the
  extended reals.
-/
import proofs.«110104_j21534966022499_1_alg».proof.Defs
import proofs.«110104_j21534966022499_1_alg».proof.Proof.Gen.Kernel
import proofs.«110104_j21534966022499_1_alg».proof.Proof.Gen.Kernel.Skeleton
import proofs.«110104_j21534966022499_1_alg».proof.Proof.Gen.Kernel.Launch
import proofs.«110104_j21534966022499_1_alg».proof.Proof.Gen.Kernel.Points
import proofs.«110104_j21534966022499_1_alg».proof.Proof.Gen.Kernel.Frame
import proofs.«110104_j21534966022499_1_alg».proof.Proof.Gen.KernelIdeal
import proofs.«110104_j21534966022499_1_alg».proof.Proof.Gen.KernelIdeal.Skeleton
import proofs.«110104_j21534966022499_1_alg».proof.Proof.Gen.KernelIdeal.Launch
import proofs.«110104_j21534966022499_1_alg».proof.Proof.Gen.KernelIdeal.Points
import proofs.«110104_j21534966022499_1_alg».proof.Proof.Gen.KernelIdeal.Frame
import proofs.«110104_j21534966022499_1_alg».proof.Proof.Gen.ReferenceIdeal
import proofs.«110104_j21534966022499_1_alg».proof.Proof.Gen.Pre_finite_inputs
import proofs.«110104_j21534966022499_1_alg».proof.Proof.KernelStages
import proofs.«110104_j21534966022499_1_alg».proof.Proof.RefStages
import proofs.«110104_j21534966022499_1_alg».proof.Proof.Agreement
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Folded.run (F := Ideal) m ρ)

/-- The two programs, from memories agreeing on the arguments, both end, with equal results. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.LogSoftmaxBlocks.G
      (Cert.ReferenceIdeal.Steps.messages64 (F := Ideal)
        (Cert.KernelIdeal.LinearBlocks.rowsTimes2
          (Cert.KernelIdeal.BiasReluBlocks.biasRelu
            (Cert.ReferenceIdeal.Steps.messages128 (F := Ideal) (Cert.KernelIdeal.LinearBlocks.rowsTimes0 (m ((c.tc : Thread Cert.KernelIdeal.nD Cert.KernelIdeal.τ).loc Cert.KernelIdeal.main_arg0)) (m ((c.tc : Thread Cert.KernelIdeal.nD Cert.KernelIdeal.τ).loc Cert.KernelIdeal.main_arg2))) (Cert.ReferenceIdeal.ReadP.val_main_v3 (F := Ideal) (m ((c.tc : Thread Cert.KernelIdeal.nD Cert.KernelIdeal.τ).loc Cert.KernelIdeal.main_arg1))) (Cert.ReferenceIdeal.ReadP.val_main_v6 (F := Ideal) (m ((c.tc : Thread Cert.KernelIdeal.nD Cert.KernelIdeal.τ).loc Cert.KernelIdeal.main_arg1))) (Cert.ReferenceIdeal.ReadP.val_main_v29 (F := Ideal) (m ((c.tc : Thread Cert.KernelIdeal.nD Cert.KernelIdeal.τ).loc Cert.KernelIdeal.main_arg1))))
            (Cert.Bridge.asRow (n := 128) (m ((c.tc : Thread Cert.KernelIdeal.nD Cert.KernelIdeal.τ).loc Cert.KernelIdeal.main_arg3))))
          (m ((c.tc : Thread Cert.KernelIdeal.nD Cert.KernelIdeal.τ).loc Cert.KernelIdeal.main_arg4)))
        (Cert.ReferenceIdeal.ReadP.val_main_v3 (F := Ideal) (m ((c.tc : Thread Cert.KernelIdeal.nD Cert.KernelIdeal.τ).loc Cert.KernelIdeal.main_arg1))) (Cert.ReferenceIdeal.ReadP.val_main_v6 (F := Ideal) (m ((c.tc : Thread Cert.KernelIdeal.nD Cert.KernelIdeal.τ).loc Cert.KernelIdeal.main_arg1))) (Cert.ReferenceIdeal.ReadP.val_main_v29 (F := Ideal) (m ((c.tc : Thread Cert.KernelIdeal.nD Cert.KernelIdeal.τ).loc Cert.KernelIdeal.main_arg1))))
      (Cert.Bridge.asRow (n := 64) (m ((c.tc : Thread Cert.KernelIdeal.nD Cert.KernelIdeal.τ).loc Cert.KernelIdeal.main_arg5))), ?_, ?_⟩
  · exact (θ_run Cert.KernelIdeal.defs _ _).mono (fun r h c => ⟨(h c).1.trans (Cert.KernelIdeal.Stages.result_eq m ρ c), (h c).2⟩)
      (Cert.KernelIdeal.Result.run_named (F := Ideal) m ρ)
  · refine (θ_run Cert.ReferenceIdeal.defs _ _).mono (fun r h c => ⟨(h c).1.trans ?_, (h c).2⟩) (Cert.ReferenceIdeal.Folded.run (F := Ideal) m' ρ')
    obtain ⟨a0, a1, a2, a3, a4, a5⟩ := hagree c
    have e0 : StableHlo.launchContents m' c (Proc.devRef .tc Cert.ReferenceIdeal.main_arg0) = (m ((c.tc : Thread Cert.KernelIdeal.nD Cert.KernelIdeal.τ).loc Cert.KernelIdeal.main_arg0)) := a0
    have e1 : StableHlo.launchContents m' c (Proc.devRef .tc Cert.ReferenceIdeal.main_arg1) = (m ((c.tc : Thread Cert.KernelIdeal.nD Cert.KernelIdeal.τ).loc Cert.KernelIdeal.main_arg1)) := a1
    have e2 : StableHlo.launchContents m' c (Proc.devRef .tc Cert.ReferenceIdeal.main_arg2) = (m ((c.tc : Thread Cert.KernelIdeal.nD Cert.KernelIdeal.τ).loc Cert.KernelIdeal.main_arg2)) := a2
    have e3 : StableHlo.launchContents m' c (Proc.devRef .tc Cert.ReferenceIdeal.main_arg3) = (m ((c.tc : Thread Cert.KernelIdeal.nD Cert.KernelIdeal.τ).loc Cert.KernelIdeal.main_arg3)) := a3
    have e4 : StableHlo.launchContents m' c (Proc.devRef .tc Cert.ReferenceIdeal.main_arg4) = (m ((c.tc : Thread Cert.KernelIdeal.nD Cert.KernelIdeal.τ).loc Cert.KernelIdeal.main_arg4)) := a4
    have e5 : StableHlo.launchContents m' c (Proc.devRef .tc Cert.ReferenceIdeal.main_arg5) = (m ((c.tc : Thread Cert.KernelIdeal.nD Cert.KernelIdeal.τ).loc Cert.KernelIdeal.main_arg5)) := a5
    have hR := Cert.ReferenceIdeal.Stages.result_eq (F := Ideal) (StableHlo.launchContents m' c)
    generalize StableHlo.launchContents m' c (Proc.devRef .tc Cert.ReferenceIdeal.main_arg0) = y0 at hR e0
    generalize StableHlo.launchContents m' c (Proc.devRef .tc Cert.ReferenceIdeal.main_arg1) = y1 at hR e1
    generalize StableHlo.launchContents m' c (Proc.devRef .tc Cert.ReferenceIdeal.main_arg2) = y2 at hR e2
    generalize StableHlo.launchContents m' c (Proc.devRef .tc Cert.ReferenceIdeal.main_arg3) = y3 at hR e3
    generalize StableHlo.launchContents m' c (Proc.devRef .tc Cert.ReferenceIdeal.main_arg4) = y4 at hR e4
    generalize StableHlo.launchContents m' c (Proc.devRef .tc Cert.ReferenceIdeal.main_arg5) = y5 at hR e5
    subst e0 e1 e2 e3 e4 e5
    exact hR.trans (Cert.Agreement.closed_forms_agree _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
